-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x32 : Shape := ⟨2, ![32, 32]⟩
abbrev S224x10 : Shape := ⟨2, ![224, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S224x10 : S_.BroadcastsInDim S224x10 (![] : Fin 0 → Fin S224x10.rank)
  reducesTo_S224x10_S_d0_1 : S224x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S224x10 .f32) (main_v50 : FVec F S224x10 .f32) : IVec S_ 1 :=
  let main_v51 : IVec S224x10 1 := cmpf .olt main_v49 main_v50
  let main_c_19 : IVec S_ 1 := constantI S_ 1 1#1
  let main_v52 : IVec S_ 1 := (fun x v => Host.reduce IntOp.andi x v reducesTo_S224x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S32x32 .f32) (main_arg10 : FVec F S32 .f32) (main_arg11 : FVec F S32x32 .f32) (main_arg12 : FVec F S224x10 .f32) (main_arg13 : FVec F S10 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S224x10 .f32 := Host.absf main_arg12
  let main_cst_18 : FVec F S_ .f32 := constant S_ .f32 0x7F800000#32
  let main_v50 : FVec F S224x10 .f32 := broadcastInDim S224x10 ![] bcast_S_S224x10 main_cst_18
  fn_part3 (F := F) main_arg13 main_v48 main_v49 main_v50

def fn_part1 {F : FTy → Type} [FloatOps F] (main_arg6 : FVec F S32x32 .f32) (main_arg7 : FVec F S32 .f32) (main_arg8 : FVec F S32x32 .f32) (main_arg9 : FVec F S32x32 .f32) (main_arg10 : FVec F S32 .f32) (main_arg11 : FVec F S32x32 .f32) (main_arg12 : FVec F S224x10 .f32) (main_arg13 : FVec F S10 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S3200000 32) (main_arg2 : IVec S3200000 32) (main_arg3 : FVec F S128x32 .f32) (main_arg4 : FVec F S32 .f32) (main_arg5 : FVec F S128x32 .f32) (main_arg6 : FVec F S32x32 .f32) (main_arg7 : FVec F S32 .f32) (main_arg8 : FVec F S32x32 .f32) (main_arg9 : FVec F S32x32 .f32) (main_arg10 : FVec F S32 .f32) (main_arg11 : FVec F S32x32 .f32) (main_arg12 : FVec F S224x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x32 : Shape := ⟨2, ![32, 32]⟩
abbrev S224x10 : Shape := ⟨2, ![224, 10]⟩
abbrev S10 : Shape := ⟨1, ![10]⟩
abbrev S128x64 : Shape := ⟨2, ![128, 64]⟩
abbrev S100000x64 : Shape := ⟨2, ![100000, 64]⟩
abbrev S2000x128 : Shape := ⟨2, ![2000, 128]⟩
abbrev S2000x64 : Shape := ⟨2, ![2000, 64]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S2000x32 : Shape := ⟨2, ![2000, 32]⟩
abbrev S32x64 : Shape := ⟨2, ![32, 64]⟩
abbrev S128x10 : Shape := ⟨2, ![128, 10]⟩
abbrev S32x10 : Shape := ⟨2, ![32, 10]⟩
abbrev S1x10 : Shape := ⟨2, ![1, 10]⟩
abbrev S100000x10 : Shape := ⟨2, ![100000, 10]⟩
abbrev S2000x10 : Shape := ⟨2, ![2000, 10]⟩
abbrev S2000 : Shape := ⟨1, ![2000]⟩
abbrev S2000x1 : Shape := ⟨2, ![2000, 1]⟩

abbrev nBuf : Space → Nat
  | .hbm => 77
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x32, .f32⟩
  | .hbm, ⟨4, _⟩ => ⟨S32, .f32⟩
  | .hbm, ⟨5, _⟩ => ⟨S128x32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32x32, .f32⟩
  | .hbm, ⟨10, _⟩ => ⟨S32, .f32⟩
  | .hbm, ⟨11, _⟩ => ⟨S32x32, .f32⟩
  | .hbm, ⟨12, _⟩ => ⟨S224x10, .f32⟩
  | .hbm, ⟨13, _⟩ => ⟨S10, .f32⟩
  | .hbm, ⟨14, _⟩ => ⟨S128x64, .f32⟩
  | .hbm, ⟨15, _⟩ => ⟨S100000x64, .f32⟩
  | .hbm, ⟨16, _⟩ => ⟨S100000x32, .f32⟩
  | .hbm, ⟨17, _⟩ => ⟨S100000x32, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x32, .f32⟩
  | .hbm, ⟨27, _⟩ => ⟨S_, .f32⟩
  | .hbm, ⟨28, _⟩ => ⟨S100000x32, .f32⟩
  | .hbm, ⟨29, _⟩ => ⟨S3200000x1, .i32⟩
  | .hbm, ⟨30, _⟩ => ⟨S100000x32, .f32⟩
  | .hbm, ⟨31, _⟩ => ⟨S1x32, .f32⟩
  | .hbm, ⟨32, _⟩ => ⟨S100000x32, .f32⟩
  | .hbm, ⟨33, _⟩ => ⟨S32x64, .f32⟩
  | .hbm, ⟨34, _⟩ => ⟨S100000x64, .f32⟩
  | .hbm, ⟨35, _⟩ => ⟨S100000x32, .f32⟩
  | .hbm, ⟨36, _⟩ => ⟨S100000x32, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x32, .f32⟩
  | .hbm, ⟨46, _⟩ => ⟨S_, .f32⟩
  | .hbm, ⟨47, _⟩ => ⟨S100000x32, .f32⟩
  | .hbm, ⟨48, _⟩ => ⟨S3200000x1, .i32⟩
  | .hbm, ⟨49, _⟩ => ⟨S100000x32, .f32⟩
  | .hbm, ⟨50, _⟩ => ⟨S1x32, .f32⟩
  | .hbm, ⟨51, _⟩ => ⟨S100000x32, .f32⟩
  | .hbm, ⟨52, _⟩ => ⟨S32x64, .f32⟩
  | .hbm, ⟨53, _⟩ => ⟨S100000x64, .f32⟩
  | .hbm, ⟨54, _⟩ => ⟨S100000x32, .f32⟩
  | .hbm, ⟨55, _⟩ => ⟨S100000x32, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x32, .f32⟩
  | .hbm, ⟨65, _⟩ => ⟨S_, .f32⟩
  | .hbm, ⟨66, _⟩ => ⟨S100000x32, .f32⟩
  | .hbm, ⟨67, _⟩ => ⟨S3200000x1, .i32⟩
  | .hbm, ⟨68, _⟩ => ⟨S100000x32, .f32⟩
  | .hbm, ⟨69, _⟩ => ⟨S1x32, .f32⟩
  | .hbm, ⟨70, _⟩ => ⟨S100000x32, .f32⟩
  | .hbm, ⟨71, _⟩ => ⟨S128x10, .f32⟩
  | .hbm, ⟨72, _⟩ => ⟨S32x10, .f32⟩
  | .hbm, ⟨73, _⟩ => ⟨S32x10, .f32⟩
  | .hbm, ⟨74, _⟩ => ⟨S32x10, .f32⟩
  | .hbm, ⟨75, _⟩ => ⟨S1x10, .f32⟩
  | .hbm, ⟨76, _⟩ => ⟨S100000x10, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S1x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S32x64, .f32⟩
  | .local _ .vmem, ⟨15, _⟩ => ⟨S2000x64, .f32⟩
  | .local _ .vmem, ⟨16, _⟩ => ⟨S2000x64, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S1x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S32x64, .f32⟩
  | .local _ .vmem, ⟨27, _⟩ => ⟨S2000x64, .f32⟩
  | .local _ .vmem, ⟨28, _⟩ => ⟨S2000x64, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S1x32, .f32⟩
  | .local _ .vmem, ⟨34, _⟩ => ⟨S2000x32, .f32⟩
  | .local _ .vmem, ⟨35, _⟩ => ⟨S2000x32, .f32⟩
  | .local _ .vmem, ⟨36, _⟩ => ⟨S2000x128, .f32⟩
  | .local _ .vmem, ⟨37, _⟩ => ⟨S2000x128, .f32⟩
  | .local _ .vmem, ⟨38, _⟩ => ⟨S2000x32, .f32⟩
  | .local _ .vmem, ⟨39, _⟩ => ⟨S2000x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | .local _ .vmem, ⟨44, _⟩ => ⟨S128x10, .f32⟩
  | .local _ .vmem, ⟨45, _⟩ => ⟨S32x10, .f32⟩
  | .local _ .vmem, ⟨46, _⟩ => ⟨S32x10, .f32⟩
  | .local _ .vmem, ⟨47, _⟩ => ⟨S32x10, .f32⟩
  | .local _ .vmem, ⟨48, _⟩ => ⟨S1x10, .f32⟩
  | .local _ .vmem, ⟨49, _⟩ => ⟨S2000x10, .f32⟩
  | .local _ .vmem, ⟨50, _⟩ => ⟨S2000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg6_0 : Ref sig .tc := ⟨.vmem, 46, rfl⟩
abbrev cc6_stg7_0 : Ref sig .tc := ⟨.vmem, 47, rfl⟩
abbrev cc6_stg8_0 : Ref sig .tc := ⟨.vmem, 48, rfl⟩
abbrev cc6_stg9_0 : Ref sig .tc := ⟨.vmem, 49, rfl⟩
abbrev cc6_stg9_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem3_1 : DmaSem sig := 43
abbrev cc6_sem4_0 : DmaSem sig := 44
abbrev cc6_sem5_0 : DmaSem sig := 45
abbrev cc6_sem6_0 : DmaSem sig := 46
abbrev cc6_sem7_0 : DmaSem sig := 47
abbrev cc6_sem8_0 : DmaSem sig := 48
abbrev cc6_sem9_0 : DmaSem sig := 49
abbrev cc6_sem9_1 : DmaSem sig := 50

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S32x10 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S32x10 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x10 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S2000x10 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  concatenates_S128x32_S128x32_S128x64_d1 : Shape.Concatenates [S128x32, S128x32] S128x64 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  slices_S100000x64_S100000x32_0_0 : S100000x64.Slices ![0, 0] S100000x32
  slices_S100000x64_S100000x32_0_32 : S100000x64.Slices ![0, 32] S100000x32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  concatenates_S32x32_S32x32_S32x64_d1 : Shape.Concatenates [S32x32, S32x32] S32x64 1
  inb_S32x64_S32x64_0_0 : ∀ a, (![0, 0] : Fin 2 → Nat) a + S32x64.size a ≤ S32x64.size a
  h_S32x64 : 0 < S32x64.numel
  shapeCasts_S32x64_S32x64 : S32x64.ShapeCasts S32x64
  slices_S224x10_S128x10_0_0 : S224x10.Slices ![0, 0] S128x10
  slices_S224x10_S32x10_128_0 : S224x10.Slices ![128, 0] S32x10
  slices_S224x10_S32x10_160_0 : S224x10.Slices ![160, 0] S32x10
  slices_S224x10_S32x10_192_0 : S224x10.Slices ![192, 0] S32x10
  shapeCasts_S10_S1x10 : S10.ShapeCasts S1x10
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  dot_S2000x128_S128x64_S2000x64_1_0_0_1_n_n_wf : DotDims.WF S2000x128 S128x64 S2000x64 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x64_S2000x64_1_0_0_1_n_n_wf : DotDims.WF S2000x32 S32x64 S2000x64 [1] [0] [0] [1] [] []
  dot_S2000x128_S128x10_S2000x10_1_0_0_1_n_n_wf : DotDims.WF S2000x128 S128x10 S2000x10 [1] [0] [0] [1] [] []
  dot_S2000x32_S32x10_S2000x10_1_0_0_1_n_n_wf : DotDims.WF S2000x32 S32x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x32.size a ≤ S100000x32.size a
  hwx3_3 : ∀ i : grid3.Coords, EltTy.bits .f32 = 32 ∨ (Rect.block (s := S100000x32) S2000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S100000x32.size a
  hwx5_1 : ∀ i : grid5.Coords, EltTy.bits .f32 = 32 ∨ (Rect.block (s := S100000x32) S2000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x32.size a ≤ S100000x32.size a
  hwx5_3 : ∀ i : grid5.Coords, EltTy.bits .f32 = 32 ∨ (Rect.block (s := S100000x32) S2000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S100000x32.size a
  hwx6_1 : ∀ i : grid6.Coords, EltTy.bits .f32 = 32 ∨ (Rect.block (s := S100000x32) S2000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x32.size a ≤ S100000x32.size a
  hwx6_2 : ∀ i : grid6.Coords, EltTy.bits .f32 = 32 ∨ (Rect.block (s := S100000x32) S2000x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x32.size a ≤ S100000x32.size a
  hwx6_3 : ∀ i : grid6.Coords, EltTy.bits .f32 = 32 ∨ (Rect.block (s := S100000x32) S2000x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x10.size a ≤ S128x10.size a
  hwx6_4 : ∀ i : grid6.Coords, EltTy.bits .f32 = 32 ∨ (Rect.block (s := S128x10) S128x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x10.size a ≤ S32x10.size a
  hwx6_5 : ∀ i : grid6.Coords, EltTy.bits .f32 = 32 ∨ (Rect.block (s := S32x10) S32x10.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S32x10.size a ≤ S32x10.size a
  hwx6_6 : ∀ i : grid6.Coords, EltTy.bits .f32 = 32 ∨ (Rect.block (s := S32x10) S32x10.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S32x10.size a ≤ S32x10.size a
  hwx6_7 : ∀ i : grid6.Coords, EltTy.bits .f32 = 32 ∨ (Rect.block (s := S32x10) S32x10.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x10.size a ≤ S1x10.size a
  hwx6_8 : ∀ i : grid6.Coords, EltTy.bits .f32 = 32 ∨ (Rect.block (s := S1x10) S1x10.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x10.size a ≤ S100000x10.size a
  hwx6_9 : ∀ i : grid6.Coords, EltTy.bits .f32 = 32 ∨ (Rect.block (s := S100000x10) S2000x10.size (cc6_transform_9 i) (hinb6_9 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf
def dot_S2000x32_S32x10_S2000x10_1_0_0_1_n_n : DotDims S2000x32 S32x10 S2000x10 where
  lhsContracting := [1]
  rhsContracting := [0]
  lhsNonContracting := [0]
  rhsNonContracting := [1]
  lhsBatch := []
  rhsBatch := []
  wf := dot_S2000x32_S32x10_S2000x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S2000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v31) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v46) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v47) S2000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v15) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v31) S2000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v47) S2000x32.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v48) S128x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v49) S32x10.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v50) S32x10.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v51) S32x10.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v52) S1x10.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v53) S2000x10.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x32 : Shape := ⟨2, ![32, 32]⟩
abbrev S224x10 : Shape := ⟨2, ![224, 10]⟩
abbrev S10 : Shape := ⟨1, ![10]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S100000x224 : Shape := ⟨2, ![100000, 224]⟩
abbrev S100000x10 : Shape := ⟨2, ![100000, 10]⟩
abbrev S1x10 : Shape := ⟨2, ![1, 10]⟩
abbrev S100000 : Shape := ⟨1, ![100000]⟩
abbrev S100000x1 : Shape := ⟨2, ![100000, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x32, .f32⟩
  | .hbm, ⟨4, _⟩ => ⟨S32, .f32⟩
  | .hbm, ⟨5, _⟩ => ⟨S128x32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32x32, .f32⟩
  | .hbm, ⟨10, _⟩ => ⟨S32, .f32⟩
  | .hbm, ⟨11, _⟩ => ⟨S32x32, .f32⟩
  | .hbm, ⟨12, _⟩ => ⟨S224x10, .f32⟩
  | .hbm, ⟨13, _⟩ => ⟨S10, .f32⟩
  | .hbm, ⟨14, _⟩ => ⟨S100000x32, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S1x32, .f32⟩
  | .hbm, ⟨29, _⟩ => ⟨S100000x32, .f32⟩
  | .hbm, ⟨30, _⟩ => ⟨S100000x32, .f32⟩
  | .hbm, ⟨31, _⟩ => ⟨S100000x32, .f32⟩
  | .hbm, ⟨32, _⟩ => ⟨S100000x32, .f32⟩
  | .hbm, ⟨33, _⟩ => ⟨S_, .f32⟩
  | .hbm, ⟨34, _⟩ => ⟨S100000x32, .f32⟩
  | .hbm, ⟨35, _⟩ => ⟨S100000x32, .f32⟩
  | .hbm, ⟨36, _⟩ => ⟨S100000x32, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x32, .f32⟩
  | .hbm, ⟨46, _⟩ => ⟨S_, .f32⟩
  | .hbm, ⟨47, _⟩ => ⟨S100000x32, .f32⟩
  | .hbm, ⟨48, _⟩ => ⟨S3200000x1, .i32⟩
  | .hbm, ⟨49, _⟩ => ⟨S100000x32, .f32⟩
  | .hbm, ⟨50, _⟩ => ⟨S1x32, .f32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S100000x32, .f32⟩
  | .hbm, ⟨55, _⟩ => ⟨S_, .f32⟩
  | .hbm, ⟨56, _⟩ => ⟨S100000x32, .f32⟩
  | .hbm, ⟨57, _⟩ => ⟨S100000x32, .f32⟩
  | .hbm, ⟨58, _⟩ => ⟨S100000x32, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x32, .f32⟩
  | .hbm, ⟨68, _⟩ => ⟨S_, .f32⟩
  | .hbm, ⟨69, _⟩ => ⟨S100000x32, .f32⟩
  | .hbm, ⟨70, _⟩ => ⟨S3200000x1, .i32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | .hbm, ⟨77, _⟩ => ⟨S_, .f32⟩
  | .hbm, ⟨78, _⟩ => ⟨S100000x32, .f32⟩
  | .hbm, ⟨79, _⟩ => ⟨S100000x32, .f32⟩
  | .hbm, ⟨80, _⟩ => ⟨S100000x224, .f32⟩
  | .hbm, ⟨81, _⟩ => ⟨S100000x10, .f32⟩
  | .hbm, ⟨82, _⟩ => ⟨S1x10, .f32⟩
  | .hbm, ⟨83, _⟩ => ⟨S100000x10, .f32⟩
  | .hbm, ⟨84, _⟩ => ⟨S100000x10, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x10, .f32⟩
  | .hbm, ⟨92, _⟩ => ⟨S100000x10, .f32⟩
  | .hbm, ⟨93, _⟩ => ⟨S100000x10, .f32⟩
  | .hbm, ⟨94, _⟩ => ⟨S_, .f32⟩
  | .hbm, ⟨95, _⟩ => ⟨S100000, .f32⟩
  | .hbm, ⟨96, _⟩ => ⟨S100000x1, .f32⟩
  | .hbm, ⟨97, _⟩ => ⟨S100000x1, .f32⟩
  | .hbm, ⟨98, _⟩ => ⟨S100000x10, .f32⟩
  | .hbm, ⟨99, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_cst : Ref sig .tc := ⟨.hbm, 55, rfl⟩
abbrev main_call1_v0 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call2_cst : Ref sig .tc := ⟨.hbm, 77, rfl⟩
abbrev main_call2_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call3_cst : Ref sig .tc := ⟨.hbm, 85, rfl⟩
abbrev main_call3_v0 : Ref sig .tc := ⟨.hbm, 86, rfl⟩
abbrev main_call3_cst_0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_cst_1 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_v56 : Ref sig .tc := ⟨.hbm, 99, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x128_S100000x32_S100000x32_S100000x32_S100000x224_d1 : Shape.Concatenates [S100000x128, S100000x32, S100000x32, S100000x32] S100000x224 1
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x128_S128x32_S100000x32_1_0_0_1_n_n_wf : DotDims.WF S100000x128 S128x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x224_S224x10_S100000x10_1_0_0_1_n_n_wf : DotDims.WF S100000x224 S224x10 S100000x10 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x224_S224x10_S100000x10_1_0_0_1_n_n : DotDims S100000x224 S224x10 S100000x10 where
  lhsContracting := [1]
  rhsContracting := [0]
  lhsNonContracting := [0]
  rhsNonContracting := [1]
  lhsBatch := []
  rhsBatch := []
  wf := dot_S100000x224_S224x10_S100000x10_1_0_0_1_n_n_wf

class Facts : Prop extends Facts₀ where

variable [Facts]
-- ==== Proof.RunValue.lean ====
/-
  The idealized kernel's run with its result named.

  The program is seven kernel calls among stretches of host operations. Run from any memory with zero
  counters, every weakly fair execution ends, and at the end every buffer that is not a call's scratch holds what the
  fold of the stretches and the calls' write-backs leaves in it (the contents at the last boundary). Read at the
  result buffer and at the fourteen arguments this gives the result as that fold's value and the arguments unchanged.
-/
import proofs.«149410_j16793322127388_1_alg».proof.Proof.GenP.KernelIdeal.Frame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory is known to satisfy on core c: every buffer that outlives the calls holds the last
    boundary's contents. -/
abbrev AtEnd (c : Dev nD) (s : MemSt nD τ sig (Elt F)) : Prop :=
  ∀ b ∈ Pipeline.ucRefs τ sig, s.mem (((c : Thread nD τ)).1, b) = W14 m ρ c b

set_option backward.isDefEq.respectTransparency.types false in
/-- Every weakly fair execution ends in a memory whose lasting buffers hold the last boundary's contents; any
    property of final memories that follows from that holds of every execution. -/
theorem run_to_end {Q : PUnit × MemSt nD τ sig (Elt F) → Prop}
    (hQ : ∀ s : MemSt nD τ sig (Elt F), (∀ c : Dev nD, AtEnd m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => AtEnd m ρ c s)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := hQ)

/-- The run: the result buffer ends at the last boundary's contents of it, the arguments end as launched. -/
theorem run_result : θ_run defs (onTc (τ := τ) (main (F := F))) ⟨m, fun _ => 0, ρ⟩ (fun r => ∀ c : Dev nD,
      r.2.mem ((c.tc : Thread nD τ).loc main_v53) = W14 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_to_end m ρ (fun s h c =>
      ⟨h c _ (mem_uc main_v53 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.RunValue

end
-- ==== Proof.Host.lean ====
/-
  The host stretches between the kernel calls, each read at the buffers it writes, from any contents.

  A stretch is a line of host operations; its results are functions of what the buffers held when it began. The
  three aggregation stretches cut the projection into its two column halves, wrap negative edge sources by
  +100000, gather the low half's rows along the edges' sources and sum them into the edges' targets from zero, and
  lay the bias out as a one-row matrix. The three concatenation stretches put a layer's two weight matrices side by
  side. The last stretch cuts the classifier's weight matrix into its four row bands and lays its bias out as a
  one-row matrix. A stretch changes no buffer it does not write.
-/
import proofs.«149410_j16793322127388_1_alg».proof.Proof.GenP.KernelIdeal.Launch
import Idealize.ShloMosaic.Lib.StableHlo.Run
import Idealize.ShloMosaic.PureOps.Ideal

noncomputable section

open Idealize.ShloMosaic Idealize.ShloMosaic.TcCoe Idealize.SL.Sem
open scoped BigOperators

namespace Cert.KernelIdeal.Host

open Cert.KernelIdeal Cert.KernelIdeal.Gen Cert.KernelIdeal.GenP Idealize.ShloMosaic.StableHlo

/-- The aggregation: rows of h gathered along the edges' sources (a negative source wrapped by +100000), summed into
    the edges' targets from zero. -/
def aggK (src dst : (⟨S3200000, .i32⟩ : BufTy).Contents (Elt Ideal)) (h : (⟨S100000x32, .f32⟩ : BufTy).Contents (Elt Ideal)) :
    (⟨S100000x32, .f32⟩ : BufTy).Contents (Elt Ideal) :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst)
    (Host.gather gather_S100000x32_S3200000x1_S3200000x32_1_0_n_n_0_1_132 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

variable (Wp : Valuation τ sig (Elt Ideal))

/-- Stretch 0: the two weight matrices side by side. -/
theorem s0_cat : StableHlo.after (hostOps0 (F := Ideal)) Wp (Proc.devRef .tc main_v0)
    = concatenate S128x64 1 [⟨S128x32, (Wp (Proc.devRef .tc main_arg3) : (⟨S128x32, .f32⟩ : BufTy).Contents (Elt Ideal))⟩,
        ⟨S128x32, (Wp (Proc.devRef .tc main_arg5) : (⟨S128x32, .f32⟩ : BufTy).Contents (Elt Ideal))⟩] concatenates_S128x32_S128x32_S128x64_d1 := by
  after_results
/-- Stretch 0 leaves every buffer it does not write as it was. -/
theorem pass0 (r : Ref sig .tc) (h : r ≠ main_v0) :
    StableHlo.after (hostOps0 (F := Ideal)) Wp (Proc.devRef .tc r) = Wp (Proc.devRef .tc r) :=
  StableHlo.after_of_forall_not_mem (b := Proc.devRef .tc r) _ _ (List.forall_iff_forall_mem.mp (by
    simp only [hostOps0, List.Forall, StableHlo.binary_writes, Finset.mem_singleton]
    exact StableHlo.devRef_ne_of_ne h))

/-- Stretch 1: the aggregated low half of the projection. -/
theorem s1_agg : StableHlo.after (hostOps1 (F := Ideal)) Wp (Proc.devRef .tc main_v13)
    = aggK (Wp (Proc.devRef .tc main_arg1)) (Wp (Proc.devRef .tc main_arg2))
        (extractStridedSlice S100000x32 ![0, 0] (Wp (Proc.devRef .tc main_v1)) slices_S100000x64_S100000x32_0_0) := by
  unfold aggK
  after_results
/-- Stretch 1: the high half of the projection. -/
theorem s1_self : StableHlo.after (hostOps1 (F := Ideal)) Wp (Proc.devRef .tc main_v3)
    = extractStridedSlice S100000x32 ![0, 32] (Wp (Proc.devRef .tc main_v1)) slices_S100000x64_S100000x32_0_32 := by
  after_results
/-- Stretch 1: the bias as a one-row matrix. -/
theorem s1_bias : StableHlo.after (hostOps1 (F := Ideal)) Wp (Proc.devRef .tc main_v14)
    = shapeCast S1x32 (Wp (Proc.devRef .tc main_arg4)) shapeCasts_S32_S1x32 := by
  after_results
  rfl
/-- Stretch 1 leaves every buffer it does not write as it was. -/
theorem pass1 (r : Ref sig .tc) (h : ∀ y ∈ [main_v2, main_v3, main_c, main_v4, main_v5, main_c_0, main_v6, main_v7, main_v8, main_v9, main_v10, main_cst, main_v11, main_v12, main_v13, main_v14], r ≠ y) :
    StableHlo.after (hostOps1 (F := Ideal)) Wp (Proc.devRef .tc r) = Wp (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (h _ (by decide))))

/-- Stretch 2: the two weight matrices side by side. -/
theorem s2_cat : StableHlo.after (hostOps2 (F := Ideal)) Wp (Proc.devRef .tc main_v16)
    = concatenate S32x64 1 [⟨S32x32, (Wp (Proc.devRef .tc main_arg6) : (⟨S32x32, .f32⟩ : BufTy).Contents (Elt Ideal))⟩,
        ⟨S32x32, (Wp (Proc.devRef .tc main_arg8) : (⟨S32x32, .f32⟩ : BufTy).Contents (Elt Ideal))⟩] concatenates_S32x32_S32x32_S32x64_d1 := by
  after_results
/-- Stretch 2 leaves every buffer it does not write as it was. -/
theorem pass2 (r : Ref sig .tc) (h : r ≠ main_v16) :
    StableHlo.after (hostOps2 (F := Ideal)) Wp (Proc.devRef .tc r) = Wp (Proc.devRef .tc r) :=
  StableHlo.after_of_forall_not_mem (b := Proc.devRef .tc r) _ _ (List.forall_iff_forall_mem.mp (by
    simp only [hostOps2, List.Forall, StableHlo.binary_writes, Finset.mem_singleton]
    exact StableHlo.devRef_ne_of_ne h))

/-- Stretch 3: the aggregated low half of the projection. -/
theorem s3_agg : StableHlo.after (hostOps3 (F := Ideal)) Wp (Proc.devRef .tc main_v29)
    = aggK (Wp (Proc.devRef .tc main_arg1)) (Wp (Proc.devRef .tc main_arg2))
        (extractStridedSlice S100000x32 ![0, 0] (Wp (Proc.devRef .tc main_v17)) slices_S100000x64_S100000x32_0_0) := by
  unfold aggK
  after_results
/-- Stretch 3: the high half of the projection. -/
theorem s3_self : StableHlo.after (hostOps3 (F := Ideal)) Wp (Proc.devRef .tc main_v19)
    = extractStridedSlice S100000x32 ![0, 32] (Wp (Proc.devRef .tc main_v17)) slices_S100000x64_S100000x32_0_32 := by
  after_results
/-- Stretch 3: the bias as a one-row matrix. -/
theorem s3_bias : StableHlo.after (hostOps3 (F := Ideal)) Wp (Proc.devRef .tc main_v30)
    = shapeCast S1x32 (Wp (Proc.devRef .tc main_arg7)) shapeCasts_S32_S1x32 := by
  after_results
  rfl
/-- Stretch 3 leaves every buffer it does not write as it was. -/
theorem pass3 (r : Ref sig .tc) (h : ∀ y ∈ [main_v18, main_v19, main_c_1, main_v20, main_v21, main_c_2, main_v22, main_v23, main_v24, main_v25, main_v26, main_cst_3, main_v27, main_v28, main_v29, main_v30], r ≠ y) :
    StableHlo.after (hostOps3 (F := Ideal)) Wp (Proc.devRef .tc r) = Wp (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (h _ (by decide))))

/-- Stretch 4: the two weight matrices side by side. -/
theorem s4_cat : StableHlo.after (hostOps4 (F := Ideal)) Wp (Proc.devRef .tc main_v32)
    = concatenate S32x64 1 [⟨S32x32, (Wp (Proc.devRef .tc main_arg9) : (⟨S32x32, .f32⟩ : BufTy).Contents (Elt Ideal))⟩,
        ⟨S32x32, (Wp (Proc.devRef .tc main_arg11) : (⟨S32x32, .f32⟩ : BufTy).Contents (Elt Ideal))⟩] concatenates_S32x32_S32x32_S32x64_d1 := by
  after_results
/-- Stretch 4 leaves every buffer it does not write as it was. -/
theorem pass4 (r : Ref sig .tc) (h : r ≠ main_v32) :
    StableHlo.after (hostOps4 (F := Ideal)) Wp (Proc.devRef .tc r) = Wp (Proc.devRef .tc r) :=
  StableHlo.after_of_forall_not_mem (b := Proc.devRef .tc r) _ _ (List.forall_iff_forall_mem.mp (by
    simp only [hostOps4, List.Forall, StableHlo.binary_writes, Finset.mem_singleton]
    exact StableHlo.devRef_ne_of_ne h))

/-- Stretch 5: the aggregated low half of the projection. -/
theorem s5_agg : StableHlo.after (hostOps5 (F := Ideal)) Wp (Proc.devRef .tc main_v45)
    = aggK (Wp (Proc.devRef .tc main_arg1)) (Wp (Proc.devRef .tc main_arg2))
        (extractStridedSlice S100000x32 ![0, 0] (Wp (Proc.devRef .tc main_v33)) slices_S100000x64_S100000x32_0_0) := by
  unfold aggK
  after_results
/-- Stretch 5: the high half of the projection. -/
theorem s5_self : StableHlo.after (hostOps5 (F := Ideal)) Wp (Proc.devRef .tc main_v35)
    = extractStridedSlice S100000x32 ![0, 32] (Wp (Proc.devRef .tc main_v33)) slices_S100000x64_S100000x32_0_32 := by
  after_results
/-- Stretch 5: the bias as a one-row matrix. -/
theorem s5_bias : StableHlo.after (hostOps5 (F := Ideal)) Wp (Proc.devRef .tc main_v46)
    = shapeCast S1x32 (Wp (Proc.devRef .tc main_arg10)) shapeCasts_S32_S1x32 := by
  after_results
  rfl
/-- Stretch 5 leaves every buffer it does not write as it was. -/
theorem pass5 (r : Ref sig .tc) (h : ∀ y ∈ [main_v34, main_v35, main_c_4, main_v36, main_v37, main_c_5, main_v38, main_v39, main_v40, main_v41, main_v42, main_cst_6, main_v43, main_v44, main_v45, main_v46], r ≠ y) :
    StableHlo.after (hostOps5 (F := Ideal)) Wp (Proc.devRef .tc r) = Wp (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (h _ (by decide))))

/-- The last stretch: the classifier's weight bands. -/
theorem s6_w0 : StableHlo.after (hostOps6 (F := Ideal)) Wp (Proc.devRef .tc main_v48)
    = extractStridedSlice S128x10 ![0, 0] (Wp (Proc.devRef .tc main_arg12)) slices_S224x10_S128x10_0_0 := by after_results
theorem s6_w1 : StableHlo.after (hostOps6 (F := Ideal)) Wp (Proc.devRef .tc main_v49)
    = extractStridedSlice S32x10 ![128, 0] (Wp (Proc.devRef .tc main_arg12)) slices_S224x10_S32x10_128_0 := by after_results
theorem s6_w2 : StableHlo.after (hostOps6 (F := Ideal)) Wp (Proc.devRef .tc main_v50)
    = extractStridedSlice S32x10 ![160, 0] (Wp (Proc.devRef .tc main_arg12)) slices_S224x10_S32x10_160_0 := by after_results
theorem s6_w3 : StableHlo.after (hostOps6 (F := Ideal)) Wp (Proc.devRef .tc main_v51)
    = extractStridedSlice S32x10 ![192, 0] (Wp (Proc.devRef .tc main_arg12)) slices_S224x10_S32x10_192_0 := by after_results
/-- The last stretch: the classifier's bias as a one-row matrix. -/
theorem s6_bias : StableHlo.after (hostOps6 (F := Ideal)) Wp (Proc.devRef .tc main_v52)
    = shapeCast S1x10 (Wp (Proc.devRef .tc main_arg13)) shapeCasts_S10_S1x10 := by
  after_results
  rfl
/-- The last stretch leaves every buffer it does not write as it was. -/
theorem pass6 (r : Ref sig .tc) (h : ∀ y ∈ [main_v48, main_v49, main_v50, main_v51, main_v52], r ≠ y) :
    StableHlo.after (hostOps6 (F := Ideal)) Wp (Proc.devRef .tc r) = Wp (Proc.devRef .tc r) :=
  StableHlo.after_of_forall_not_mem (b := Proc.devRef .tc r) _ _ (List.forall_iff_forall_mem.mp (by
    simp only [hostOps6, List.Forall, StableHlo.unary_writes, StableHlo.reshape_writes, Finset.mem_singleton]
    repeat' apply And.intro
    all_goals exact StableHlo.devRef_ne_of_ne (h _ (by decide))))

end Cert.KernelIdeal.Host

end
-- ==== Proof.ChainArgs.lean ====
/-
  The argument buffers through the program: no stretch and no call writes one, so at every boundary between
  segments each of the fourteen arguments holds what it held at launch. (A call reads an argument through an input
  window, whose array it leaves as it found it, or does not touch it at all.)
-/
import proofs.«149410_j16793322127388_1_alg».proof.Proof.GenP.KernelIdeal.Frame
import proofs.«149410_j16793322127388_1_alg».proof.Proof.Host
import Idealize.ShloMosaic.Lib.ValueIdx

noncomputable section

open Idealize.ShloMosaic Idealize.ShloMosaic.TcCoe Idealize.SL.Sem Idealize.ShloMosaic.ValueIdx
open Idealize.ShloMosaic.Pipeline (Dat)
open Idealize.ShloMosaic.StableHlo
open scoped BigOperators

namespace Cert.KernelIdeal.Chain

open Cert.KernelIdeal Cert.KernelIdeal.Gen Cert.KernelIdeal.GenP Cert.KernelIdeal.Host

/-- The fourteen argument buffers. -/
def argList : List (Ref sig .tc) :=
  [main_arg0, main_arg1, main_arg2, main_arg3, main_arg4, main_arg5, main_arg6, main_arg7, main_arg8, main_arg9,
    main_arg10, main_arg11, main_arg12, main_arg13]

theorem d0 : ∀ r ∈ argList, r ≠ main_v0 := by decide +kernel
theorem d1 : ∀ r ∈ argList, ∀ y ∈ [main_v2, main_v3, main_c, main_v4, main_v5, main_c_0, main_v6, main_v7, main_v8, main_v9, main_v10, main_cst, main_v11, main_v12, main_v13, main_v14], r ≠ y := by decide +kernel
theorem d2 : ∀ r ∈ argList, r ≠ main_v16 := by decide +kernel
theorem d3 : ∀ r ∈ argList, ∀ y ∈ [main_v18, main_v19, main_c_1, main_v20, main_v21, main_c_2, main_v22, main_v23, main_v24, main_v25, main_v26, main_cst_3, main_v27, main_v28, main_v29, main_v30], r ≠ y := by decide +kernel
theorem d4 : ∀ r ∈ argList, r ≠ main_v32 := by decide +kernel
theorem d5 : ∀ r ∈ argList, ∀ y ∈ [main_v34, main_v35, main_c_4, main_v36, main_v37, main_c_5, main_v38, main_v39, main_v40, main_v41, main_v42, main_cst_6, main_v43, main_v44, main_v45, main_v46], r ≠ y := by decide +kernel
theorem d6 : ∀ r ∈ argList, ∀ y ∈ [main_v48, main_v49, main_v50, main_v51, main_v52], r ≠ y := by decide +kernel
theorem n0 : ∀ r ∈ argList, r ≠ main_arg0 → ∀ w : Fin 3, Pipeline.arrRef spec0 w ≠ r := by decide +kernel
theorem n1 : ∀ r ∈ argList, ∀ w : Fin 4, Pipeline.arrRef spec1 w ≠ r := by decide +kernel
theorem n2 : ∀ r ∈ argList, ∀ w : Fin 3, Pipeline.arrRef spec2 w ≠ r := by decide +kernel
theorem n3 : ∀ r ∈ argList, ∀ w : Fin 4, Pipeline.arrRef spec3 w ≠ r := by decide +kernel
theorem n4 : ∀ r ∈ argList, ∀ w : Fin 3, Pipeline.arrRef spec4 w ≠ r := by decide +kernel
theorem n5 : ∀ r ∈ argList, ∀ w : Fin 4, Pipeline.arrRef spec5 w ≠ r := by decide +kernel

variable (m : (ℓ : Loc nD τ sig) → Buf (Elt Ideal) ℓ) (ρ : Dev nD → PrngReg) (c : Dev nD)

theorem kept1 : ∀ r ∈ argList, W1 m ρ c (Proc.devRef .tc r) = W0 m ρ c (Proc.devRef .tc r) :=
  fun r hr => pass0 (W0 m ρ c) r (d0 r hr)
theorem kept2 : ∀ r ∈ argList, W2 m ρ c (Proc.devRef .tc r) = W0 m ρ c (Proc.devRef .tc r) := fun r hr => by
  by_cases h0 : r = main_arg0
  · subst h0
    exact ((W2_arr m ρ c 0).trans (((dat0 (V1 m ρ) c).arrAt_in 0 rfl _).trans (A_eq0 (V1 m ρ) c 0))).trans
      (kept1 m ρ c main_arg0 hr)
  · exact (W2_of_ne m ρ c r (n0 r hr h0)).trans (kept1 m ρ c r hr)
theorem kept3 : ∀ r ∈ argList, W3 m ρ c (Proc.devRef .tc r) = W0 m ρ c (Proc.devRef .tc r) :=
  fun r hr => (pass1 (W2 m ρ c) r (d1 r hr)).trans (kept2 m ρ c r hr)
theorem kept4 : ∀ r ∈ argList, W4 m ρ c (Proc.devRef .tc r) = W0 m ρ c (Proc.devRef .tc r) :=
  fun r hr => (W4_of_ne m ρ c r (n1 r hr)).trans (kept3 m ρ c r hr)
theorem kept5 : ∀ r ∈ argList, W5 m ρ c (Proc.devRef .tc r) = W0 m ρ c (Proc.devRef .tc r) :=
  fun r hr => (pass2 (W4 m ρ c) r (d2 r hr)).trans (kept4 m ρ c r hr)
theorem kept6 : ∀ r ∈ argList, W6 m ρ c (Proc.devRef .tc r) = W0 m ρ c (Proc.devRef .tc r) :=
  fun r hr => (W6_of_ne m ρ c r (n2 r hr)).trans (kept5 m ρ c r hr)
theorem kept7 : ∀ r ∈ argList, W7 m ρ c (Proc.devRef .tc r) = W0 m ρ c (Proc.devRef .tc r) :=
  fun r hr => (pass3 (W6 m ρ c) r (d3 r hr)).trans (kept6 m ρ c r hr)
theorem kept8 : ∀ r ∈ argList, W8 m ρ c (Proc.devRef .tc r) = W0 m ρ c (Proc.devRef .tc r) :=
  fun r hr => (W8_of_ne m ρ c r (n3 r hr)).trans (kept7 m ρ c r hr)
theorem kept9 : ∀ r ∈ argList, W9 m ρ c (Proc.devRef .tc r) = W0 m ρ c (Proc.devRef .tc r) :=
  fun r hr => (pass4 (W8 m ρ c) r (d4 r hr)).trans (kept8 m ρ c r hr)
theorem kept10 : ∀ r ∈ argList, W10 m ρ c (Proc.devRef .tc r) = W0 m ρ c (Proc.devRef .tc r) :=
  fun r hr => (W10_of_ne m ρ c r (n4 r hr)).trans (kept9 m ρ c r hr)
theorem kept11 : ∀ r ∈ argList, W11 m ρ c (Proc.devRef .tc r) = W0 m ρ c (Proc.devRef .tc r) :=
  fun r hr => (pass5 (W10 m ρ c) r (d5 r hr)).trans (kept10 m ρ c r hr)
theorem kept12 : ∀ r ∈ argList, W12 m ρ c (Proc.devRef .tc r) = W0 m ρ c (Proc.devRef .tc r) :=
  fun r hr => (W12_of_ne m ρ c r (n5 r hr)).trans (kept11 m ρ c r hr)
theorem kept13 : ∀ r ∈ argList, W13 m ρ c (Proc.devRef .tc r) = W0 m ρ c (Proc.devRef .tc r) :=
  fun r hr => (pass6 (W12 m ρ c) r (d6 r hr)).trans (kept12 m ρ c r hr)

end Cert.KernelIdeal.Chain

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibLogSoftmaxRow.lean ====
/-
  The logarithm of the softmax of a row of extended reals, in the two spellings a row-blocked kernel and a
  whole-array reference use, and the law that joins them.

  For a row L with largest entry M, a kernel computes L s − (log (Σ k, exp (L k − M)) + M) on a block of rows as a tree of
  vector operations — the row maxima kept as a column and stretched back over the rows, a pointwise exponential, the row
  sums kept as a column, their logarithm plus the column of maxima stretched back —; read at entry (r, s) that tree is
  `shiftedLog` of row r (`logSoftmax_rows_apply`). A reference computes (L s − M) − log (Σ k, exp (L k − M)). On the
  extended reals the two differ when the row holds an infinity (+∞ − +∞ is −∞); when every entry of a nonempty row is a
  real number, M is real, the sum of exponentials is a positive real, and the two are one real number (`spellings_agree`).
  Stated over arbitrary extents.
-/
import proofs.«149410_j16793322127388_1_alg».proof.Proof.LibRowLayout
import proofs.«149410_j16793322127388_1_alg».proof.Proof.LibRealSums
import Idealize.ShloMosaic.PureOps.Ideal.Laws
import Idealize.ShloMosaic.Lib.ValueLayout
import Idealize.ShloMosaic.PureOps.Reduce

noncomputable section

namespace Cert.Lib.LogSoftmaxRow

open Idealize.ShloMosaic Idealize.ShloMosaic.ValueIdx
open Cert.KernelIdeal.MvnKernel

/-- The largest entry of a row of extended reals (−∞ for the empty row). -/
def rowMax {n : ℕ} (L : Fin n → EReal) : EReal := (Finset.univ : Finset (Fin n)).fold max ⊥ L

/-- Entry `s` of the log-softmax of the row `L`, the maximum added back inside the subtracted term. -/
def shiftedLog {n : ℕ} (L : Fin n → EReal) (s : Fin n) : EReal :=
  L s - (Ideal.log (∑ k : Fin n, Ideal.exp (L k - rowMax L)) + rowMax L)

/-- Entry `s` of the log-softmax of the row `L`, the maximum subtracted first. -/
def logOfShifted {n : ℕ} (L : Fin n → EReal) (s : Fin n) : EReal :=
  (L s - rowMax L) - Ideal.log (∑ k : Fin n, Ideal.exp (L k - rowMax L))

/-- The f32 pattern of −∞ denotes the least extended real. -/
theorem ofBits_neg_inf : Ideal.ofBits .f32 0xFF800000#32 = ⊥ := by simp [Ideal.ofBits, Ideal.ieee]

/-- A block of rows put through the log-softmax tree of vector operations, read at entry (r, s). -/
theorem logSoftmax_rows_apply {a b : ℕ} (Z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin a) (s : Fin b) :
    subf Z (broadcastTo ⟨2, ![a, b]⟩
      (addf
        (log (shapeCast ⟨2, ![a, 1]⟩
          (multiReduction .add [1] ⟨1, ![a]⟩
            (exp (subf Z (broadcastTo ⟨2, ![a, b]⟩ (shapeCast ⟨2, ![a, 1]⟩
              (multiReduction .maximumf [1] ⟨1, ![a]⟩ Z 0xFF800000#32 hr hφ hmax) hc) hb)))
            0x00000000#32 hr hφ hadd) hc))
        (shapeCast ⟨2, ![a, 1]⟩ (multiReduction .maximumf [1] ⟨1, ![a]⟩ Z 0xFF800000#32 hr hφ hmax) hc)) hb) (ix2 r s)
      = shiftedLog (fun k => Z (ix2 r k)) s := by
  -- the column of maxima holds, at row r, that row's maximum
  have hM : shapeCast ⟨2, ![a, 1]⟩ (multiReduction .maximumf [1] ⟨1, ![a]⟩ Z 0xFF800000#32 hr hφ hmax) hc (ix2 r (0 : Fin 1))
      = rowMax fun k => Z (ix2 r k) :=
    (shapeCast_a_a1_apply _ hc r 0).trans ((multiReduction_max_row Z _ hr hφ hmax r).trans (by rw [ofBits_neg_inf]; rfl))
  -- so the exponentials along row r are those of the row's log-softmax
  have hE : ∀ k : Fin b, exp (subf Z (broadcastTo ⟨2, ![a, b]⟩ (shapeCast ⟨2, ![a, 1]⟩
        (multiReduction .maximumf [1] ⟨1, ![a]⟩ Z 0xFF800000#32 hr hφ hmax) hc) hb)) (ix2 r k)
      = Ideal.exp (Z (ix2 r k) - rowMax fun k => Z (ix2 r k)) := fun k => by
    show Ideal.exp (Z (ix2 r k) - broadcastTo ⟨2, ![a, b]⟩ _ hb (ix2 r k)) = _
    rw [broadcastTo_a1_ab_apply _ hb r k, hM]
  show Z (ix2 r s) - broadcastTo ⟨2, ![a, b]⟩ _ hb (ix2 r s) = _
  rw [broadcastTo_a1_ab_apply _ hb r s]
  show Z (ix2 r s) - (Ideal.log (shapeCast ⟨2, ![a, 1]⟩ _ hc (ix2 r (0 : Fin 1))) + shapeCast ⟨2, ![a, 1]⟩ _ hc (ix2 r (0 : Fin 1))) = _
  rw [hM, shapeCast_a_a1_apply _ hc r 0, multiReduction_add_row _ _ hr hφ hadd r]
  unfold shiftedLog
  rw [Finset.sum_congr rfl fun k _ => hE k]

/-- The host's maximum over the second axis of a matrix, from −∞, read at row r: the row's largest entry. -/
theorem hostRowMax_apply {a b : ℕ} (Z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf Z (constant (⟨0, ![]⟩ : Shape) .f32 0xFF800000#32) h' hu (ix1 r)
      = rowMax fun k => Z (ix2 r k) := by
  rw [Host.reduce_eq_fold_single FloatOps.maximumf Z _ h' h hu]
  show (Finset.univ : Finset (Fin b)).fold max (Ideal.ofBits .f32 0xFF800000#32) _ = _
  rw [ofBits_neg_inf]
  unfold rowMax
  refine congrArg ((Finset.univ : Finset (Fin b)).fold max ⊥) (funext fun k => ?_)
  exact congrArg Z (funext fun ax => Fin.ext (by
    match ax with
    | ⟨0, _⟩ => rfl
    | ⟨1, _⟩ => rfl))

/-- The maximum of a nonempty row of real numbers is a real number. -/
theorem rowMax_real {n : ℕ} (hn : 0 < n) (L : Fin n → EReal) (hL : ∀ k, ∃ x : ℝ, L k = x) : ∃ x : ℝ, rowMax L = x := by
  have key : ∀ t : Finset (Fin n), t = ∅ ∨ ∃ x : ℝ, t.fold max ⊥ L = x := by
    intro t
    induction t using Finset.induction_on with
    | empty => exact Or.inl rfl
    | insert i t hi ih =>
      right
      obtain ⟨x, hx⟩ := hL i
      rw [Finset.fold_insert hi, hx]
      rcases ih with rfl | ⟨y, hy⟩
      · exact ⟨x, by rw [Finset.fold_empty]; exact max_eq_left bot_le⟩
      · exact ⟨max x y, by rw [hy]; exact (EReal.coe_strictMono.monotone.map_max).symm⟩
  rcases key Finset.univ with h | h
  · exact absurd h (Finset.univ_nonempty_iff.mpr ⟨⟨0, hn⟩⟩).ne_empty
  · exact h

/-- On a nonempty row of real numbers the two spellings of the log-softmax are one number. -/
theorem spellings_agree {n : ℕ} (hn : 0 < n) (L : Fin n → EReal) (hL : ∀ k, ∃ x : ℝ, L k = x) (s : Fin n) :
    shiftedLog L s = logOfShifted L s := by
  obtain ⟨M, hM⟩ := rowMax_real hn L hL
  choose l hl using hL
  unfold shiftedLog logOfShifted
  rw [hM]
  have hsum : (∑ k : Fin n, Ideal.exp (L k - (M : EReal))) = ((∑ k : Fin n, Real.exp (l k - M) : ℝ) : EReal) := by
    rw [Cert.Lib.RealSums.coe_sum]
    exact Finset.sum_congr rfl fun k _ => by rw [hl k, ← EReal.coe_sub]; rfl
  have hpos : 0 < ∑ k : Fin n, Real.exp (l k - M) :=
    Finset.sum_pos (fun k _ => Real.exp_pos _) (Finset.univ_nonempty_iff.mpr ⟨⟨0, hn⟩⟩)
  rw [hsum, hl s, Ideal.log_coe, if_neg (not_le.mpr hpos)]
  rw [← EReal.coe_add, ← EReal.coe_sub, ← EReal.coe_sub, ← EReal.coe_sub]
  congr 1
  ring

end Cert.Lib.LogSoftmaxRow

end
-- ==== Proof.Spec.lean ====
/-
  The network both programs compute, as one function of the argument arrays over the extended reals.

  A layer takes node features h (N rows), two weight matrices and a bias row, and an aggregation A of an
  [N, D] matrix (the sum of the neighbours' rows along the edges, kept abstract here: both programs apply
  the same one): its output at (r, c) is max (A (h·Wn) (r, c) + (h·Ws) (r, c) + b c) 0.  The classifier
  multiplies the four feature matrices, laid side by side, by the row bands [0,128), [128,160), [160,192),
  [192,224) of one weight matrix, adds a bias row, and takes the log-softmax of each row of the result,
  the row's maximum subtracted first.
-/
import proofs.«149410_j16793322127388_1_alg».proof.Proof.LibPlainDot
import proofs.«149410_j16793322127388_1_alg».proof.Proof.LibLogSoftmaxRow

noncomputable section

namespace Cert.Spec

open Idealize.ShloMosaic Idealize.ShloMosaic.ValueIdx
open Cert.Lib.PlainDot Cert.Lib.LogSoftmaxRow
open scoped BigOperators

/-- A matrix of extended reals. -/
abbrev Mat (R C : ℕ) : Type := (⟨2, ![R, C]⟩ : Shape).Idx → EReal
/-- A row of extended reals. -/
abbrev Row (C : ℕ) : Type := (⟨1, ![C]⟩ : Shape).Idx → EReal

/-- The row coordinate of a matrix index. -/
abbrev c0 {R C : ℕ} (i : (⟨2, ![R, C]⟩ : Shape).Idx) : Fin R := ⟨(i 0).val, idx2_lt0 i⟩
/-- The column coordinate of a matrix index. -/
abbrev c1 {R C : ℕ} (i : (⟨2, ![R, C]⟩ : Shape).Idx) : Fin C := ⟨(i 1).val, idx2_lt1 i⟩

/-- The value of the f32 word of +0.0 (never evaluated: both programs compare against the same word). -/
def zero32 : EReal := Ideal.ofBits .f32 0x00000000#32

/-- One layer: max (A (h·Wn) + h·Ws + b) 0, entry by entry. -/
def layer {N K D : ℕ} (A : Mat N D → Mat N D) (h : Mat N K) (Wn Ws : Mat K D) (b : Row D) : Mat N D :=
  fun i => max (A (mm h Wn) i + mm h Ws i + b (ix1 (c1 i))) zero32

/-- The band of K rows of W that starts at row o. -/
def rowsFrom {M C : ℕ} (K o : ℕ) (h : o + K ≤ M) (W : Mat M C) : Mat K C :=
  fun j => W (ix2 ⟨o + (j 0).val, Nat.lt_of_lt_of_le (Nat.add_lt_add_left (idx2_lt0 j) o) h⟩ (c1 j))

/-- The classifier's logits: the four feature matrices against their bands of W, plus the bias row. -/
def logits {N : ℕ} (x0 : Mat N 128) (x1 x2 x3 : Mat N 32) (W : Mat 224 10) (b : Row 10) : Mat N 10 :=
  fun i => mm x0 (rowsFrom 128 0 (by decide) W) i + mm x1 (rowsFrom 32 128 (by decide) W) i
    + mm x2 (rowsFrom 32 160 (by decide) W) i + mm x3 (rowsFrom 32 192 (by decide) W) i + b (ix1 (c1 i))

/-- The log-softmax of every row, the row's maximum subtracted first. -/
def logSoftmax {N C : ℕ} (L : Mat N C) : Mat N C :=
  fun i => logOfShifted (fun k => L (ix2 (c0 i) k)) (c1 i)

/-- The whole network: three layers over one aggregation, then the classifier. -/
def net {N : ℕ} (A : Mat N 32 → Mat N 32) (x : Mat N 128)
    (Wn0 Ws0 : Mat 128 32) (b0 : Row 32) (Wn1 Ws1 : Mat 32 32) (b1 : Row 32) (Wn2 Ws2 : Mat 32 32) (b2 : Row 32)
    (W : Mat 224 10) (b : Row 10) : Mat N 10 :=
  logSoftmax (logits x (layer A x Wn0 Ws0 b0) (layer A (layer A x Wn0 Ws0 b0) Wn1 Ws1 b1)
    (layer A (layer A (layer A x Wn0 Ws0 b0) Wn1 Ws1 b1) Wn2 Ws2 b2) W b)

end Cert.Spec

end
-- ==== Proof.Proj0.lean ====
/-
  Layer 0's projection: the array the matrix-product call leaves.

  The call walks 50 blocks of 2000 rows. At block t it multiplies rows [2000 t, 2000 t + 2000) of the features
  (all 128 columns) by the whole [128, 64] weight matrix into a zero accumulator, the operands' change of
  format being the identity on the extended reals, and writes the product to the same rows of the result. Entry
  (r, c) of a block's product is the sum over k of feature (2000 t + r, k) times weight (k, c): the same sum as
  entry (2000 t + r, c) of the whole product, so the blocks are the row blocks of ONE matrix product, and the 50
  blocks cover the result.
-/
import proofs.«149410_j16793322127388_1_alg».proof.Proof.GenP.KernelIdeal.Frame
import proofs.«149410_j16793322127388_1_alg».proof.Proof.Spec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Proj0

open Cert.KernelIdeal Cert.KernelIdeal.Gen Cert.KernelIdeal.GenP Cert.Lib.PlainDot Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the plain product of the two loaded blocks. -/
theorem pay_apply (x0 : Vec Ideal S2000x128 .f32) (x1 : Vec Ideal S128x64 .f32) (j : S2000x64.Idx) :
    k0_pay1 x0 x1 j = mm (R := 2000) (K := 128) (C := 64) x0 x1 j := by
  unfold k0_pay1
  simp only [shapeCast_self]
  exact matmul_zero_apply _ rfl none _ _ j

/-- Where each window's block sits at point t: the feature and result blocks at row block t, the weights whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product, typed as the result array. -/
abbrev prod (c : Dev nD) : S100000x64.Idx → Elt Ideal .f32 :=
  mm (R := 100000) (K := 128) (C := 64) (V c main_arg0) (V c main_v0)

/-- What point t writes back is block t of the whole product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts t
  funext j
  refine (pay_apply (iblk0 V c 0 t) (iblk0 V c 1 t) j).trans ?_
  rw [View.read_apply]
  unfold prod mm
  refine Finset.sum_congr rfl fun k _ => ?_
  have hx : iblk0 V c 0 t (rowIdx j k) = V c main_arg0 (rowIdx (((cfg0.win 2).blk t).view.emb j) k) := by
    unfold iblk0
    rw [View.read_apply]
    show V c main_arg0 (((cfg0.win 0).blk t).view.emb (rowIdx j k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hw : iblk0 V c 1 t (colIdx j k) = V c main_v0 (colIdx (((cfg0.win 2).blk t).view.emb j) k) := by
    unfold iblk0
    rw [View.read_apply]
    show V c main_v0 (((cfg0.win 1).blk t).view.emb (colIdx j k)) = _
    refine congrArg (V c main_v0) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An index of the result is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v1).slice (win0_2.rect t)).set ↔ _
  rw [View.set_slice_whole, Rect.mem_set_unit]
  exact Iff.rfl

/-- Every row of the result lies in the block of the point r / 2000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The result array after the call: the whole product of the features and the weights as the call finds them. -/
theorem final (c : Dev nD) : (dat0 V c).arrAt 2 cfg0.N = prod V c :=
  (dat0 V c).arrAt_eq_of_cover 2 (prod V c) (fun t _ => flushed_eq V c t) (cover)

end Cert.KernelIdeal.Proj0

end
-- ==== Proof.Proj2.lean ====
/-
  Layer 1's projection: the array the matrix-product call leaves.

  The call walks 50 blocks of 2000 rows. At block t it multiplies rows [2000 t, 2000 t + 2000) of the features
  (all 32 columns) by the whole [32, 64] weight matrix into a zero accumulator, the operands' change of
  format being the identity on the extended reals, and writes the product to the same rows of the result. Entry
  (r, c) of a block's product is the sum over k of feature (2000 t + r, k) times weight (k, c): the same sum as
  entry (2000 t + r, c) of the whole product, so the blocks are the row blocks of ONE matrix product, and the 50
  blocks cover the result.
-/
import proofs.«149410_j16793322127388_1_alg».proof.Proof.GenP.KernelIdeal.Frame
import proofs.«149410_j16793322127388_1_alg».proof.Proof.Spec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Proj2

open Cert.KernelIdeal Cert.KernelIdeal.Gen Cert.KernelIdeal.GenP Cert.Lib.PlainDot Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the plain product of the two loaded blocks. -/
theorem pay_apply (x0 : Vec Ideal S2000x32 .f32) (x1 : Vec Ideal S32x64 .f32) (j : S2000x64.Idx) :
    k2_pay1 x0 x1 j = mm (R := 2000) (K := 32) (C := 64) x0 x1 j := by
  unfold k2_pay1
  simp only [shapeCast_self]
  exact matmul_zero_apply _ rfl none _ _ j

/-- Where each window's block sits at point t: the feature and result blocks at row block t, the weights whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole product, typed as the result array. -/
abbrev prod (c : Dev nD) : S100000x64.Idx → Elt Ideal .f32 :=
  mm (R := 100000) (K := 32) (C := 64) (V c main_v15) (V c main_v16)

/-- What point t writes back is block t of the whole product. -/
theorem flushed_eq (c : Dev nD) (t : Fin cfg2.N) :
    (dat2 V c).flushed 2 t = ((cfg2.win 2).blk t).view.read (Elt Ideal) (prod V c) := by
  show (cfg2.win 2).cut (grid2.coords t) ((dat2 V c).after 2 t) = _
  rw [after2_2]
  unfold out2_2
  rw [View.canon_unit_zero hz]
  simp only [View.ld_unit_zero (S := S2000x32) hz, View.ld_unit_zero (S := S32x64) hz]
  obtain ⟨e0, e1, e2, e3, e4, e5⟩ := idx_facts t
  funext j
  refine (pay_apply (iblk2 V c 0 t) (iblk2 V c 1 t) j).trans ?_
  rw [View.read_apply]
  unfold prod mm
  refine Finset.sum_congr rfl fun k _ => ?_
  have hx : iblk2 V c 0 t (rowIdx j k) = V c main_v15 (rowIdx (((cfg2.win 2).blk t).view.emb j) k) := by
    unfold iblk2
    rw [View.read_apply]
    show V c main_v15 (((cfg2.win 0).blk t).view.emb (rowIdx j k)) = _
    refine congrArg (V c main_v15) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 32 + 1 * k.val = k.val; omega
  have hw : iblk2 V c 1 t (colIdx j k) = V c main_v16 (colIdx (((cfg2.win 2).blk t).view.emb j) k) := by
    unfold iblk2
    rw [View.read_apply]
    show V c main_v16 (((cfg2.win 1).blk t).view.emb (colIdx j k)) = _
    refine congrArg (V c main_v16) (funext fun a => Fin.ext ?_)
    match a with
    | ⟨0, _⟩ => show win2_1.index t (0 : Fin 2) * 32 + 1 * k.val = k.val; omega
    | ⟨1, _⟩ => show win2_1.index t (1 : Fin 2) * 64 + 1 * (j 1).val = win2_2.index t (1 : Fin 2) * 64 + 1 * (j 1).val; omega
  rw [hx, hw]

/-- An index of the result is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v17).slice (win2_2.rect t)).set ↔ _
  rw [View.set_slice_whole, Rect.mem_set_unit]
  exact Iff.rfl

/-- Every row of the result lies in the block of the point r / 2000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨e0, e1, e2, e3, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The result array after the call: the whole product of the features and the weights as the call finds them. -/
theorem final (c : Dev nD) : (dat2 V c).arrAt 2 cfg2.N = prod V c :=
  (dat2 V c).arrAt_eq_of_cover 2 (prod V c) (fun t _ => flushed_eq V c t) (cover)

end Cert.KernelIdeal.Proj2

end
-- ==== Proof.Proj4.lean ====
/-
  Layer 2's projection: the array the matrix-product call leaves.

  The call walks 50 blocks of 2000 rows. At block t it multiplies rows [2000 t, 2000 t + 2000) of the features
  (all 32 columns) by the whole [32, 64] weight matrix into a zero accumulator, the operands' change of
  format being the identity on the extended reals, and writes the product to the same rows of the result. Entry
  (r, c) of a block's product is the sum over k of feature (2000 t + r, k) times weight (k, c): the same sum as
  entry (2000 t + r, c) of the whole product, so the blocks are the row blocks of ONE matrix product, and the 50
  blocks cover the result.
-/
import proofs.«149410_j16793322127388_1_alg».proof.Proof.GenP.KernelIdeal.Frame
import proofs.«149410_j16793322127388_1_alg».proof.Proof.Spec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Proj4

open Cert.KernelIdeal Cert.KernelIdeal.Gen Cert.KernelIdeal.GenP Cert.Lib.PlainDot Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the plain product of the two loaded blocks. -/
theorem pay_apply (x0 : Vec Ideal S2000x32 .f32) (x1 : Vec Ideal S32x64 .f32) (j : S2000x64.Idx) :
    k4_pay1 x0 x1 j = mm (R := 2000) (K := 32) (C := 64) x0 x1 j := by
  unfold k4_pay1
  simp only [shapeCast_self]
  exact matmul_zero_apply _ rfl none _ _ j

/-- Where each window's block sits at point t: the feature and result blocks at row block t, the weights whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The whole product, typed as the result array. -/
abbrev prod (c : Dev nD) : S100000x64.Idx → Elt Ideal .f32 :=
  mm (R := 100000) (K := 32) (C := 64) (V c main_v31) (V c main_v32)

/-- What point t writes back is block t of the whole product. -/
theorem flushed_eq (c : Dev nD) (t : Fin cfg4.N) :
    (dat4 V c).flushed 2 t = ((cfg4.win 2).blk t).view.read (Elt Ideal) (prod V c) := by
  show (cfg4.win 2).cut (grid4.coords t) ((dat4 V c).after 2 t) = _
  rw [after4_2]
  unfold out4_2
  rw [View.canon_unit_zero hz]
  simp only [View.ld_unit_zero (S := S2000x32) hz, View.ld_unit_zero (S := S32x64) hz]
  obtain ⟨e0, e1, e2, e3, e4, e5⟩ := idx_facts t
  funext j
  refine (pay_apply (iblk4 V c 0 t) (iblk4 V c 1 t) j).trans ?_
  rw [View.read_apply]
  unfold prod mm
  refine Finset.sum_congr rfl fun k _ => ?_
  have hx : iblk4 V c 0 t (rowIdx j k) = V c main_v31 (rowIdx (((cfg4.win 2).blk t).view.emb j) k) := by
    unfold iblk4
    rw [View.read_apply]
    show V c main_v31 (((cfg4.win 0).blk t).view.emb (rowIdx j k)) = _
    refine congrArg (V c main_v31) (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 32 + 1 * k.val = k.val; omega
  have hw : iblk4 V c 1 t (colIdx j k) = V c main_v32 (colIdx (((cfg4.win 2).blk t).view.emb j) k) := by
    unfold iblk4
    rw [View.read_apply]
    show V c main_v32 (((cfg4.win 1).blk t).view.emb (colIdx j k)) = _
    refine congrArg (V c main_v32) (funext fun a => Fin.ext ?_)
    match a with
    | ⟨0, _⟩ => show win4_1.index t (0 : Fin 2) * 32 + 1 * k.val = k.val; omega
    | ⟨1, _⟩ => show win4_1.index t (1 : Fin 2) * 64 + 1 * (j 1).val = win4_2.index t (1 : Fin 2) * 64 + 1 * (j 1).val; omega
  rw [hx, hw]

/-- An index of the result is in point t's block iff each coordinate is in the block's range on its axis. -/
theorem mem_blk (t : Fin cfg4.N) (i : S100000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v33).slice (win4_2.rect t)).set ↔ _
  rw [View.set_slice_whole, Rect.mem_set_unit]
  exact Iff.rfl

/-- Every row of the result lies in the block of the point r / 2000. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 50 := N_4
  let t : Fin cfg4.N := ⟨(i 0).val / 2000, by rw [hN]; omega⟩
  obtain ⟨e0, e1, e2, e3, e4, e5⟩ := idx_facts t
  have ht : t.val = (i 0).val / 2000 := rfl
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- The result array after the call: the whole product of the features and the weights as the call finds them. -/
theorem final (c : Dev nD) : (dat4 V c).arrAt 2 cfg4.N = prod V c :=
  (dat4 V c).arrAt_eq_of_cover 2 (prod V c) (fun t _ => flushed_eq V c t) (cover)

end Cert.KernelIdeal.Proj4

end
-- ==== Proof.SpecK.lean ====
/-
  The two entrywise pieces of the network in the form the kernel calls take their operands: the classifier's logits
  with the four weight bands and the bias row given separately, and a layer's clamped sum with the bias as a one-row matrix.
-/
import proofs.«149410_j16793322127388_1_alg».proof.Proof.Spec

noncomputable section

open Idealize.ShloMosaic Idealize.ShloMosaic.TcCoe Idealize.SL.Sem Idealize.ShloMosaic.ValueIdx
open scoped BigOperators

namespace Cert.Spec

open Cert.Lib.PlainDot

/-- The logits of N rows: four products added, plus the one bias row. -/
def logitsOf {N : ℕ} (x0 : Mat N 128) (x1 x2 x3 : Mat N 32) (w0 : Mat 128 10) (w1 w2 w3 : Mat 32 10) (b : Mat 1 10) : Mat N 10 :=
  fun i => mm x0 w0 i + mm x1 w1 i + mm x2 w2 i + mm x3 w3 i + b (ix2 (0 : Fin 1) (c1 i))

/-- Two matrices and a one-row matrix added entry by entry (the row to every row), clamped below at 0. -/
def combOf {N D : ℕ} (a s : Mat N D) (b : Mat 1 D) : Mat N D :=
  fun i => max (a i + s i + b (ix2 (0 : Fin 1) (c1 i))) zero32

end Cert.Spec

end
-- ==== Proof.Comb1.lean ====
/-
  Layer 0's combination: the array the add-bias-and-clamp call leaves.

  The call walks 50 blocks of 2000 rows. At block t it reads rows [2000 t, 2000 t + 2000) of the aggregated
  and of the self-projected features, and the one bias row, and writes max ((a + s) + b, 0) entry by entry to the
  same rows of the result. The entry (r, c) of block t depends on entries (2000 t + r, c) of the two inputs and on
  entry c of the bias only, so the blocks are the row blocks of ONE entrywise function of the whole arrays, and
  the 50 blocks cover the result.
-/
import proofs.«149410_j16793322127388_1_alg».proof.Proof.GenP.KernelIdeal.Frame
import proofs.«149410_j16793322127388_1_alg».proof.Proof.SpecK
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Comb1

open Cert.KernelIdeal Cert.KernelIdeal.Gen Cert.KernelIdeal.GenP Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the clamped sum of the two blocks' entries and the bias row's entry q. -/
theorem pay_apply (x0 x1 : Vec Ideal S2000x32 .f32) (x2 : Vec Ideal S1x32 .f32) (p : Fin 2000) (q : Fin 32) :
    k1_pay1 x0 x1 x2 (ix2 p q) = max (x0 (ix2 p q) + x1 (ix2 p q) + x2 (ix2 (0 : Fin 1) q)) zero32 := by
  unfold k1_pay1
  simp only [shapeCast_self]
  show max (x0 (ix2 p q) + x1 (ix2 p q) + broadcastTo S2000x32 x2 broadcasts_S1x32_S2000x32 (ix2 p q)) _ = _
  rw [broadcastTo_1b_ab_apply x2 broadcasts_S1x32_S2000x32 p q]
  rfl

/-- Where each window's block sits at point t: the three row-blocked windows at row block t, the bias whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole result: max ((a + s) + b, 0), entry by entry, of the arrays as the call finds them. -/
abbrev whole (c : Dev nD) : S100000x32.Idx → Elt Ideal .f32 :=
  combOf (N := 100000) (D := 32) (V c main_v13) (V c main_v3) (V c main_v14)

/-- What point t writes back is block t of the whole result. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero hz]
  simp only [View.ld_unit_zero (S := S2000x32) hz, View.ld_unit_zero (S := S1x32) hz]
  obtain ⟨e0, e1, e2, e3, e4, e5, e6, e7⟩ := idx_facts t
  funext j
  obtain ⟨p, q, rfl⟩ : ∃ (p : Fin 2000) (q : Fin 32), j = ix2 p q := ⟨j 0, j 1, eq_ix2 j⟩
  refine (pay_apply (iblk1 V c 0 t) (iblk1 V c 1 t) (iblk1 V c 2 t) p q).trans ?_
  have ha : iblk1 V c 0 t (ix2 p q) = V c main_v13 (((cfg1.win 3).blk t).view.emb (ix2 p q)) := by
    unfold iblk1
    rw [View.read_apply]
    show V c main_v13 (((cfg1.win 0).blk t).view.emb (ix2 p q)) = _
    refine congrArg (V c main_v13) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 32 + 1 * q.val = win1_3.index t (1 : Fin 2) * 32 + 1 * q.val; omega
  have hs : iblk1 V c 1 t (ix2 p q) = V c main_v3 (((cfg1.win 3).blk t).view.emb (ix2 p q)) := by
    unfold iblk1
    rw [View.read_apply]
    show V c main_v3 (((cfg1.win 1).blk t).view.emb (ix2 p q)) = _
    refine congrArg (V c main_v3) (funext fun a => Fin.ext ?_)
    match a with
    | ⟨0, _⟩ => show win1_1.index t (0 : Fin 2) * 2000 + 1 * p.val = win1_3.index t (0 : Fin 2) * 2000 + 1 * p.val; omega
    | ⟨1, _⟩ => show win1_1.index t (1 : Fin 2) * 32 + 1 * q.val = win1_3.index t (1 : Fin 2) * 32 + 1 * q.val; omega
  have hb : iblk1 V c 2 t (ix2 (0 : Fin 1) q)
      = V c main_v14 (ix2 (0 : Fin 1) (c1 (((cfg1.win 3).blk t).view.emb (ix2 p q)))) := by
    unfold iblk1
    rw [View.read_apply]
    show V c main_v14 (((cfg1.win 2).blk t).view.emb (ix2 (0 : Fin 1) q)) = _
    refine congrArg (V c main_v14) (funext fun a => Fin.ext ?_)
    match a with
    | ⟨0, _⟩ => show win1_2.index t (0 : Fin 2) * 1 + 1 * 0 = 0; omega
    | ⟨1, _⟩ => show win1_2.index t (1 : Fin 2) * 32 + 1 * q.val = win1_3.index t (1 : Fin 2) * 32 + 1 * q.val; omega
  rw [ha, hs, hb, View.read_apply]
  rfl

/-- An index of the result is in point t's block iff each coordinate is in the block's range on its axis. -/
theorem mem_blk (t : Fin cfg1.N) (i : S100000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v15).slice (win1_3.rect t)).set ↔ _
  rw [View.set_slice_whole, Rect.mem_set_unit]
  exact Iff.rfl

/-- Every row of the result lies in the block of the point r / 2000. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 50 := N_1
  let t : Fin cfg1.N := ⟨(i 0).val / 2000, by rw [hN]; omega⟩
  obtain ⟨e0, e1, e2, e3, e4, e5, e6, e7⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 32 ≤ (i 1).val ∧ (i 1).val < win1_3.index t (1 : Fin 2) * 32 + 32; omega

/-- The result array after the call. -/
theorem final (c : Dev nD) : (dat1 V c).arrAt 3 cfg1.N = whole V c :=
  (dat1 V c).arrAt_eq_of_cover 3 (whole V c) (fun t _ => flushed_eq V c t) (cover)

end Cert.KernelIdeal.Comb1

end
-- ==== Proof.Comb3.lean ====
/-
  Layer 1's combination: the array the add-bias-and-clamp call leaves.

  The call walks 50 blocks of 2000 rows. At block t it reads rows [2000 t, 2000 t + 2000) of the aggregated
  and of the self-projected features, and the one bias row, and writes max ((a + s) + b, 0) entry by entry to the
  same rows of the result. The entry (r, c) of block t depends on entries (2000 t + r, c) of the two inputs and on
  entry c of the bias only, so the blocks are the row blocks of ONE entrywise function of the whole arrays, and
  the 50 blocks cover the result.
-/
import proofs.«149410_j16793322127388_1_alg».proof.Proof.GenP.KernelIdeal.Frame
import proofs.«149410_j16793322127388_1_alg».proof.Proof.SpecK
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Comb3

open Cert.KernelIdeal Cert.KernelIdeal.Gen Cert.KernelIdeal.GenP Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the clamped sum of the two blocks' entries and the bias row's entry q. -/
theorem pay_apply (x0 x1 : Vec Ideal S2000x32 .f32) (x2 : Vec Ideal S1x32 .f32) (p : Fin 2000) (q : Fin 32) :
    k3_pay1 x0 x1 x2 (ix2 p q) = max (x0 (ix2 p q) + x1 (ix2 p q) + x2 (ix2 (0 : Fin 1) q)) zero32 := by
  unfold k3_pay1
  simp only [shapeCast_self]
  show max (x0 (ix2 p q) + x1 (ix2 p q) + broadcastTo S2000x32 x2 broadcasts_S1x32_S2000x32 (ix2 p q)) _ = _
  rw [broadcastTo_1b_ab_apply x2 broadcasts_S1x32_S2000x32 p q]
  rfl

/-- Where each window's block sits at point t: the three row-blocked windows at row block t, the bias whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The whole result: max ((a + s) + b, 0), entry by entry, of the arrays as the call finds them. -/
abbrev whole (c : Dev nD) : S100000x32.Idx → Elt Ideal .f32 :=
  combOf (N := 100000) (D := 32) (V c main_v29) (V c main_v19) (V c main_v30)

/-- What point t writes back is block t of the whole result. -/
theorem flushed_eq (c : Dev nD) (t : Fin cfg3.N) :
    (dat3 V c).flushed 3 t = ((cfg3.win 3).blk t).view.read (Elt Ideal) (whole V c) := by
  show (cfg3.win 3).cut (grid3.coords t) ((dat3 V c).after 3 t) = _
  rw [after3_3]
  unfold out3_3
  rw [View.canon_unit_zero hz]
  simp only [View.ld_unit_zero (S := S2000x32) hz, View.ld_unit_zero (S := S1x32) hz]
  obtain ⟨e0, e1, e2, e3, e4, e5, e6, e7⟩ := idx_facts t
  funext j
  obtain ⟨p, q, rfl⟩ : ∃ (p : Fin 2000) (q : Fin 32), j = ix2 p q := ⟨j 0, j 1, eq_ix2 j⟩
  refine (pay_apply (iblk3 V c 0 t) (iblk3 V c 1 t) (iblk3 V c 2 t) p q).trans ?_
  have ha : iblk3 V c 0 t (ix2 p q) = V c main_v29 (((cfg3.win 3).blk t).view.emb (ix2 p q)) := by
    unfold iblk3
    rw [View.read_apply]
    show V c main_v29 (((cfg3.win 0).blk t).view.emb (ix2 p q)) = _
    refine congrArg (V c main_v29) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 32 + 1 * q.val = win3_3.index t (1 : Fin 2) * 32 + 1 * q.val; omega
  have hs : iblk3 V c 1 t (ix2 p q) = V c main_v19 (((cfg3.win 3).blk t).view.emb (ix2 p q)) := by
    unfold iblk3
    rw [View.read_apply]
    show V c main_v19 (((cfg3.win 1).blk t).view.emb (ix2 p q)) = _
    refine congrArg (V c main_v19) (funext fun a => Fin.ext ?_)
    match a with
    | ⟨0, _⟩ => show win3_1.index t (0 : Fin 2) * 2000 + 1 * p.val = win3_3.index t (0 : Fin 2) * 2000 + 1 * p.val; omega
    | ⟨1, _⟩ => show win3_1.index t (1 : Fin 2) * 32 + 1 * q.val = win3_3.index t (1 : Fin 2) * 32 + 1 * q.val; omega
  have hb : iblk3 V c 2 t (ix2 (0 : Fin 1) q)
      = V c main_v30 (ix2 (0 : Fin 1) (c1 (((cfg3.win 3).blk t).view.emb (ix2 p q)))) := by
    unfold iblk3
    rw [View.read_apply]
    show V c main_v30 (((cfg3.win 2).blk t).view.emb (ix2 (0 : Fin 1) q)) = _
    refine congrArg (V c main_v30) (funext fun a => Fin.ext ?_)
    match a with
    | ⟨0, _⟩ => show win3_2.index t (0 : Fin 2) * 1 + 1 * 0 = 0; omega
    | ⟨1, _⟩ => show win3_2.index t (1 : Fin 2) * 32 + 1 * q.val = win3_3.index t (1 : Fin 2) * 32 + 1 * q.val; omega
  rw [ha, hs, hb, View.read_apply]
  rfl

/-- An index of the result is in point t's block iff each coordinate is in the block's range on its axis. -/
theorem mem_blk (t : Fin cfg3.N) (i : S100000x32.Idx) :
    i ∈ ((cfg3.win 3).blk t).view.set ↔ ∀ a : Fin 2, win3_3.index t a * S2000x32.size a ≤ (i a).val ∧ (i a).val < win3_3.index t a * S2000x32.size a + S2000x32.size a := by
  show i ∈ ((View.whole main_v31).slice (win3_3.rect t)).set ↔ _
  rw [View.set_slice_whole, Rect.mem_set_unit]
  exact Iff.rfl

/-- Every row of the result lies in the block of the point r / 2000. -/
theorem cover (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 50 := N_3
  let t : Fin cfg3.N := ⟨(i 0).val / 2000, by rw [hN]; omega⟩
  obtain ⟨e0, e1, e2, e3, e4, e5, e6, e7⟩ := idx_facts t
  have ht : t.val = (i 0).val / 2000 := rfl
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 32 ≤ (i 1).val ∧ (i 1).val < win3_3.index t (1 : Fin 2) * 32 + 32; omega

/-- The result array after the call. -/
theorem final (c : Dev nD) : (dat3 V c).arrAt 3 cfg3.N = whole V c :=
  (dat3 V c).arrAt_eq_of_cover 3 (whole V c) (fun t _ => flushed_eq V c t) (cover)

end Cert.KernelIdeal.Comb3

end
-- ==== Proof.Comb5.lean ====
/-
  Layer 2's combination: the array the add-bias-and-clamp call leaves.

  The call walks 50 blocks of 2000 rows. At block t it reads rows [2000 t, 2000 t + 2000) of the aggregated
  and of the self-projected features, and the one bias row, and writes max ((a + s) + b, 0) entry by entry to the
  same rows of the result. The entry (r, c) of block t depends on entries (2000 t + r, c) of the two inputs and on
  entry c of the bias only, so the blocks are the row blocks of ONE entrywise function of the whole arrays, and
  the 50 blocks cover the result.
-/
import proofs.«149410_j16793322127388_1_alg».proof.Proof.GenP.KernelIdeal.Frame
import proofs.«149410_j16793322127388_1_alg».proof.Proof.SpecK
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Comb5

open Cert.KernelIdeal Cert.KernelIdeal.Gen Cert.KernelIdeal.GenP Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the clamped sum of the two blocks' entries and the bias row's entry q. -/
theorem pay_apply (x0 x1 : Vec Ideal S2000x32 .f32) (x2 : Vec Ideal S1x32 .f32) (p : Fin 2000) (q : Fin 32) :
    k5_pay1 x0 x1 x2 (ix2 p q) = max (x0 (ix2 p q) + x1 (ix2 p q) + x2 (ix2 (0 : Fin 1) q)) zero32 := by
  unfold k5_pay1
  simp only [shapeCast_self]
  show max (x0 (ix2 p q) + x1 (ix2 p q) + broadcastTo S2000x32 x2 broadcasts_S1x32_S2000x32 (ix2 p q)) _ = _
  rw [broadcastTo_1b_ab_apply x2 broadcasts_S1x32_S2000x32 p q]
  rfl

/-- Where each window's block sits at point t: the three row-blocked windows at row block t, the bias whole. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The whole result: max ((a + s) + b, 0), entry by entry, of the arrays as the call finds them. -/
abbrev whole (c : Dev nD) : S100000x32.Idx → Elt Ideal .f32 :=
  combOf (N := 100000) (D := 32) (V c main_v45) (V c main_v35) (V c main_v46)

/-- What point t writes back is block t of the whole result. -/
theorem flushed_eq (c : Dev nD) (t : Fin cfg5.N) :
    (dat5 V c).flushed 3 t = ((cfg5.win 3).blk t).view.read (Elt Ideal) (whole V c) := by
  show (cfg5.win 3).cut (grid5.coords t) ((dat5 V c).after 3 t) = _
  rw [after5_3]
  unfold out5_3
  rw [View.canon_unit_zero hz]
  simp only [View.ld_unit_zero (S := S2000x32) hz, View.ld_unit_zero (S := S1x32) hz]
  obtain ⟨e0, e1, e2, e3, e4, e5, e6, e7⟩ := idx_facts t
  funext j
  obtain ⟨p, q, rfl⟩ : ∃ (p : Fin 2000) (q : Fin 32), j = ix2 p q := ⟨j 0, j 1, eq_ix2 j⟩
  refine (pay_apply (iblk5 V c 0 t) (iblk5 V c 1 t) (iblk5 V c 2 t) p q).trans ?_
  have ha : iblk5 V c 0 t (ix2 p q) = V c main_v45 (((cfg5.win 3).blk t).view.emb (ix2 p q)) := by
    unfold iblk5
    rw [View.read_apply]
    show V c main_v45 (((cfg5.win 0).blk t).view.emb (ix2 p q)) = _
    refine congrArg (V c main_v45) (funext fun a => Fin.ext ?_)
    match a with
    | ⟨0, _⟩ => show win5_0.index t (0 : Fin 2) * 2000 + 1 * p.val = win5_3.index t (0 : Fin 2) * 2000 + 1 * p.val; omega
    | ⟨1, _⟩ => show win5_0.index t (1 : Fin 2) * 32 + 1 * q.val = win5_3.index t (1 : Fin 2) * 32 + 1 * q.val; omega
  have hs : iblk5 V c 1 t (ix2 p q) = V c main_v35 (((cfg5.win 3).blk t).view.emb (ix2 p q)) := by
    unfold iblk5
    rw [View.read_apply]
    show V c main_v35 (((cfg5.win 1).blk t).view.emb (ix2 p q)) = _
    refine congrArg (V c main_v35) (funext fun a => Fin.ext ?_)
    match a with
    | ⟨0, _⟩ => show win5_1.index t (0 : Fin 2) * 2000 + 1 * p.val = win5_3.index t (0 : Fin 2) * 2000 + 1 * p.val; omega
    | ⟨1, _⟩ => show win5_1.index t (1 : Fin 2) * 32 + 1 * q.val = win5_3.index t (1 : Fin 2) * 32 + 1 * q.val; omega
  have hb : iblk5 V c 2 t (ix2 (0 : Fin 1) q)
      = V c main_v46 (ix2 (0 : Fin 1) (c1 (((cfg5.win 3).blk t).view.emb (ix2 p q)))) := by
    unfold iblk5
    rw [View.read_apply]
    show V c main_v46 (((cfg5.win 2).blk t).view.emb (ix2 (0 : Fin 1) q)) = _
    refine congrArg (V c main_v46) (funext fun a => Fin.ext ?_)
    match a with
    | ⟨0, _⟩ => show win5_2.index t (0 : Fin 2) * 1 + 1 * 0 = 0; omega
    | ⟨1, _⟩ => show win5_2.index t (1 : Fin 2) * 32 + 1 * q.val = win5_3.index t (1 : Fin 2) * 32 + 1 * q.val; omega
  rw [ha, hs, hb, View.read_apply]
  rfl

/-- An index of the result is in point t's block iff each coordinate is in the block's range on its axis. -/
theorem mem_blk (t : Fin cfg5.N) (i : S100000x32.Idx) :
    i ∈ ((cfg5.win 3).blk t).view.set ↔ ∀ a : Fin 2, win5_3.index t a * S2000x32.size a ≤ (i a).val ∧ (i a).val < win5_3.index t a * S2000x32.size a + S2000x32.size a := by
  show i ∈ ((View.whole main_v47).slice (win5_3.rect t)).set ↔ _
  rw [View.set_slice_whole, Rect.mem_set_unit]
  exact Iff.rfl

/-- Every row of the result lies in the block of the point r / 2000. -/
theorem cover (i : S100000x32.Idx) :
    ∃ t : Fin cfg5.N, (cfg5.win 3).flush t = true ∧ i ∈ ((cfg5.win 3).blk t).view.set := by
  have hi0 : (i 0).val < 100000 := (i 0).isLt
  have hi1 : (i 1).val < 32 := (i 1).isLt
  have hN : cfg5.N = 50 := N_5
  let t : Fin cfg5.N := ⟨(i 0).val / 2000, by rw [hN]; omega⟩
  obtain ⟨e0, e1, e2, e3, e4, e5, e6, e7⟩ := idx_facts t
  have ht : t.val = (i 0).val / 2000 := rfl
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 32 ≤ (i 1).val ∧ (i 1).val < win5_3.index t (1 : Fin 2) * 32 + 32; omega

/-- The result array after the call. -/
theorem final (c : Dev nD) : (dat5 V c).arrAt 3 cfg5.N = whole V c :=
  (dat5 V c).arrAt_eq_of_cover 3 (whole V c) (fun t _ => flushed_eq V c t) (cover)

end Cert.KernelIdeal.Comb5

end
-- ==== Proof.Fc6a.lean ====
/-
  The classifier call: the array it leaves.

  The call walks 50 blocks of 2000 rows. At block t it reads rows [2000 t, 2000 t + 2000) of the four feature
  matrices and the four weight matrices and the bias row whole; it forms the logits (four plain matrix products
  into zero accumulators, added, plus the bias row), takes each row's maximum M, and writes
  (L − M) − log Σ exp (L − M) to the same rows of the result. Entry (r, c) of block t depends on row 2000 t + r of
  the features only, so the blocks are the row blocks of ONE function of the whole arrays — the log-softmax of
  the whole logits — and the 50 blocks cover the result.
-/
import proofs.«149410_j16793322127388_1_alg».proof.Proof.GenP.KernelIdeal.Frame
import proofs.«149410_j16793322127388_1_alg».proof.Proof.SpecK
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Classifier

open Cert.KernelIdeal Cert.KernelIdeal.Gen Cert.KernelIdeal.GenP Cert.Lib.PlainDot Cert.Lib.LogSoftmaxRow Cert.Spec
open Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's logits at entry (p, q). -/
theorem pay2_apply (x0 : Vec Ideal S2000x128 .f32) (x1 x2 x3 : Vec Ideal S2000x32 .f32) (w0 : Vec Ideal S128x10 .f32)
    (w1 w2 w3 : Vec Ideal S32x10 .f32) (b : Vec Ideal S1x10 .f32) (p : Fin 2000) (q : Fin 10) :
    k6_pay2 x0 x1 x2 x3 w0 w1 w2 w3 b (ix2 p q) = logitsOf (N := 2000) x0 x1 x2 x3 w0 w1 w2 w3 b (ix2 p q) := by
  unfold k6_pay2 logitsOf
  simp only [shapeCast_self]
  rw [addf_apply, addf_apply, addf_apply, addf_apply, broadcastTo_1b_ab_apply b broadcasts_S1x10_S2000x10 p q]
  simp only [matmul_zero_apply dot_S2000x128_S128x10_S2000x10_1_0_0_1_n_n rfl, matmul_zero_apply dot_S2000x32_S32x10_S2000x10_1_0_0_1_n_n rfl]
  rfl

/-- The column of row maxima the body keeps. -/
theorem pay3_eq (x0 : Vec Ideal S2000x128 .f32) (x1 x2 x3 : Vec Ideal S2000x32 .f32) (w0 : Vec Ideal S128x10 .f32)
    (w1 w2 w3 : Vec Ideal S32x10 .f32) (b : Vec Ideal S1x10 .f32) :
    k6_pay3 x0 x1 x2 x3 w0 w1 w2 w3 b
      = shapeCast S2000x1 (multiReduction .maximumf [1] S2000 (k6_pay2 x0 x1 x2 x3 w0 w1 w2 w3 b) 0xFF800000#32
          reduces_S2000x10_S2000 (.inl rfl) rfl) shapeCasts_S2000_S2000x1 := rfl

/-- A block of rows put through the body's log-softmax tree, read at entry (r, s): the row's log-softmax, the
    maximum subtracted first. -/
theorem tree_apply {a b : ℕ} (Z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin a) (s : Fin b) :
    subf (subf Z (broadcastTo ⟨2, ![a, b]⟩ (shapeCast ⟨2, ![a, 1]⟩
        (multiReduction .maximumf [1] ⟨1, ![a]⟩ Z 0xFF800000#32 hr hφ hmax) hc) hb))
      (broadcastTo ⟨2, ![a, b]⟩
        (log (shapeCast ⟨2, ![a, 1]⟩
          (multiReduction .add [1] ⟨1, ![a]⟩
            (exp (subf Z (broadcastTo ⟨2, ![a, b]⟩ (shapeCast ⟨2, ![a, 1]⟩
              (multiReduction .maximumf [1] ⟨1, ![a]⟩ Z 0xFF800000#32 hr hφ hmax) hc) hb)))
            0x00000000#32 hr hφ hadd) hc)) hb) (ix2 r s)
      = logOfShifted (fun k => Z (ix2 r k)) s := by
  have hM : shapeCast ⟨2, ![a, 1]⟩ (multiReduction .maximumf [1] ⟨1, ![a]⟩ Z 0xFF800000#32 hr hφ hmax) hc (ix2 r (0 : Fin 1))
      = rowMax fun k => Z (ix2 r k) :=
    (shapeCast_a_a1_apply _ hc r 0).trans ((multiReduction_max_row Z _ hr hφ hmax r).trans (by rw [ofBits_neg_inf]; rfl))
  have hS : ∀ k : Fin b, subf Z (broadcastTo ⟨2, ![a, b]⟩ (shapeCast ⟨2, ![a, 1]⟩
        (multiReduction .maximumf [1] ⟨1, ![a]⟩ Z 0xFF800000#32 hr hφ hmax) hc) hb) (ix2 r k)
      = Z (ix2 r k) - rowMax fun k => Z (ix2 r k) := fun k => by
    show Z (ix2 r k) - broadcastTo ⟨2, ![a, b]⟩ _ hb (ix2 r k) = _
    rw [broadcastTo_a1_ab_apply _ hb r k, hM]
  show subf Z _ (ix2 r s) - broadcastTo ⟨2, ![a, b]⟩ _ hb (ix2 r s) = _
  rw [broadcastTo_a1_ab_apply _ hb r s, hS s]
  show _ - Ideal.log (shapeCast ⟨2, ![a, 1]⟩ _ hc (ix2 r (0 : Fin 1))) = _
  rw [shapeCast_a_a1_apply _ hc r 0, multiReduction_add_row _ _ hr hφ hadd r]
  unfold logOfShifted
  refine congrArg (fun y => _ - Ideal.log y) (Finset.sum_congr rfl fun k _ => ?_)
  show Ideal.exp (subf Z _ (ix2 r k)) = _
  rw [hS k]

/-- The body's stored value at entry (p, q), from the logits L and their column of row maxima. -/
theorem pay1_apply (L : FVec Ideal S2000x10 .f32) (p : Fin 2000) (q : Fin 10) :
    k6_pay1 L (shapeCast S2000x1 (multiReduction .maximumf [1] S2000 L 0xFF800000#32 reduces_S2000x10_S2000 (.inl rfl) rfl)
      shapeCasts_S2000_S2000x1) (ix2 p q) = logOfShifted (fun k => L (ix2 p k)) q := by
  unfold k6_pay1
  exact tree_apply (a := 2000) (b := 10) L reduces_S2000x10_S2000 shapeCasts_S2000_S2000x1 broadcasts_S2000x1_S2000x10 (.inl rfl) rfl rfl p q

/-- Where each window's block sits at point t. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

/-- The whole logits, of the arrays as the call finds them. -/
abbrev logitsAll (c : Dev nD) : Mat 100000 10 :=
  logitsOf (N := 100000) (V c main_arg0) (V c main_v15) (V c main_v31) (V c main_v47)
    (V c main_v48) (V c main_v49) (V c main_v50) (V c main_v51) (V c main_v52)

/-- The whole result: the log-softmax of every row of the whole logits. -/
abbrev whole (c : Dev nD) : S100000x10.Idx → Elt Ideal .f32 := logSoftmax (logitsAll V c)

/-- If row p of a block is row r of the whole features and the weights agree, the block's product at (p, k) is the
    whole product at (r, k). -/
theorem blockProd {K : ℕ} (p : Fin 2000) (r : Fin 100000) (k : Fin 10)
    (X : Mat 2000 K) (Wb : Mat K 10) (A : Mat 100000 K) (Wa : Mat K 10)
    (hX : ∀ e : Fin K, X (ix2 p e) = A (ix2 r e)) (hW : ∀ (e : Fin K) (k : Fin 10), Wb (ix2 e k) = Wa (ix2 e k)) :
    mm X Wb (ix2 p k) = mm A Wa (ix2 r k) := by
  unfold mm
  refine Finset.sum_congr rfl fun e _ => ?_
  have h1 : rowIdx (ix2 p k) e = ix2 p e := funext fun a => by
    match a with
    | ⟨0, _⟩ => rfl
    | ⟨1, _⟩ => rfl
  have h2 : colIdx (ix2 p k) e = ix2 e k := funext fun a => by
    match a with
    | ⟨0, _⟩ => rfl
    | ⟨1, _⟩ => rfl
  have h3 : rowIdx (ix2 r k) e = ix2 r e := funext fun a => by
    match a with
    | ⟨0, _⟩ => rfl
    | ⟨1, _⟩ => rfl
  rw [h1, h2, h3, hX e, hW e k]

end Cert.KernelIdeal.Classifier

end
-- ==== Proof.Fc6b.lean ====
/-
  The classifier call, from blocks to the array: point t's block of the result is block t of the log-softmax of the
  whole logits, and the 50 blocks cover the result.
-/
import proofs.«149410_j16793322127388_1_alg».proof.Proof.GenP.KernelIdeal.Frame
import proofs.«149410_j16793322127388_1_alg».proof.Proof.Fc6a

noncomputable section

open Idealize.ShloMosaic Idealize.ShloMosaic.TcCoe Idealize.SL.Sem Idealize.ShloMosaic.ValueIdx
open Idealize.ShloMosaic.Pipeline (Dat)
open scoped BigOperators

namespace Cert.KernelIdeal.Classifier

open Cert.KernelIdeal Cert.KernelIdeal.Gen Cert.KernelIdeal.GenP Cert.Lib.PlainDot Cert.Lib.LogSoftmaxRow Cert.Spec

variable (V : (c : Dev nD) → (b : Ref sig .tc) → Buf (Elt Ideal) ((c : Thread nD τ).loc b))

/-- Row p of window 0's block at point t is row 2000 t + p of its array. -/
theorem feat0 (c : Dev nD) (t : Fin cfg6.N) (p : Fin 2000) (r : Fin 100000) (hr : r.val = t.val * 2000 + p.val) (e : Fin 128) :
    iblk6 V c 0 t (ix2 p e) = (V c main_arg0 : Mat 100000 128) (ix2 r e) := by
  obtain ⟨e0, e1, e2, e3, e4, e5, e6, e7, e8, e9, e10, e11, e12, e13, e14, e15, e16, e17, e18, e19⟩ := idx_facts t
  unfold iblk6
  rw [View.read_apply]
  show V c main_arg0 (((cfg6.win 0).blk t).view.emb (ix2 p e)) = _
  refine congrArg (V c main_arg0) (funext fun a => Fin.ext ?_)
  match a with
  | ⟨0, _⟩ => show win6_0.index t (0 : Fin 2) * 2000 + 1 * p.val = r.val; omega
  | ⟨1, _⟩ => show win6_0.index t (1 : Fin 2) * 128 + 1 * e.val = e.val; omega
/-- Row p of window 1's block at point t is row 2000 t + p of its array. -/
theorem feat1 (c : Dev nD) (t : Fin cfg6.N) (p : Fin 2000) (r : Fin 100000) (hr : r.val = t.val * 2000 + p.val) (e : Fin 32) :
    iblk6 V c 1 t (ix2 p e) = (V c main_v15 : Mat 100000 32) (ix2 r e) := by
  obtain ⟨e0, e1, e2, e3, e4, e5, e6, e7, e8, e9, e10, e11, e12, e13, e14, e15, e16, e17, e18, e19⟩ := idx_facts t
  unfold iblk6
  rw [View.read_apply]
  show V c main_v15 (((cfg6.win 1).blk t).view.emb (ix2 p e)) = _
  refine congrArg (V c main_v15) (funext fun a => Fin.ext ?_)
  match a with
  | ⟨0, _⟩ => show win6_1.index t (0 : Fin 2) * 2000 + 1 * p.val = r.val; omega
  | ⟨1, _⟩ => show win6_1.index t (1 : Fin 2) * 32 + 1 * e.val = e.val; omega
/-- Row p of window 2's block at point t is row 2000 t + p of its array. -/
theorem feat2 (c : Dev nD) (t : Fin cfg6.N) (p : Fin 2000) (r : Fin 100000) (hr : r.val = t.val * 2000 + p.val) (e : Fin 32) :
    iblk6 V c 2 t (ix2 p e) = (V c main_v31 : Mat 100000 32) (ix2 r e) := by
  obtain ⟨e0, e1, e2, e3, e4, e5, e6, e7, e8, e9, e10, e11, e12, e13, e14, e15, e16, e17, e18, e19⟩ := idx_facts t
  unfold iblk6
  rw [View.read_apply]
  show V c main_v31 (((cfg6.win 2).blk t).view.emb (ix2 p e)) = _
  refine congrArg (V c main_v31) (funext fun a => Fin.ext ?_)
  match a with
  | ⟨0, _⟩ => show win6_2.index t (0 : Fin 2) * 2000 + 1 * p.val = r.val; omega
  | ⟨1, _⟩ => show win6_2.index t (1 : Fin 2) * 32 + 1 * e.val = e.val; omega
/-- Row p of window 3's block at point t is row 2000 t + p of its array. -/
theorem feat3 (c : Dev nD) (t : Fin cfg6.N) (p : Fin 2000) (r : Fin 100000) (hr : r.val = t.val * 2000 + p.val) (e : Fin 32) :
    iblk6 V c 3 t (ix2 p e) = (V c main_v47 : Mat 100000 32) (ix2 r e) := by
  obtain ⟨e0, e1, e2, e3, e4, e5, e6, e7, e8, e9, e10, e11, e12, e13, e14, e15, e16, e17, e18, e19⟩ := idx_facts t
  unfold iblk6
  rw [View.read_apply]
  show V c main_v47 (((cfg6.win 3).blk t).view.emb (ix2 p e)) = _
  refine congrArg (V c main_v47) (funext fun a => Fin.ext ?_)
  match a with
  | ⟨0, _⟩ => show win6_3.index t (0 : Fin 2) * 2000 + 1 * p.val = r.val; omega
  | ⟨1, _⟩ => show win6_3.index t (1 : Fin 2) * 32 + 1 * e.val = e.val; omega
/-- Window 4's block at any point is its whole array. -/
theorem wt4 (c : Dev nD) (t : Fin cfg6.N) (e : Fin 128) (k : Fin 10) :
    iblk6 V c 4 t (ix2 e k) = (V c main_v48 : Mat 128 10) (ix2 e k) := by
  obtain ⟨e0, e1, e2, e3, e4, e5, e6, e7, e8, e9, e10, e11, e12, e13, e14, e15, e16, e17, e18, e19⟩ := idx_facts t
  unfold iblk6
  rw [View.read_apply]
  show V c main_v48 (((cfg6.win 4).blk t).view.emb (ix2 e k)) = _
  refine congrArg (V c main_v48) (funext fun a => Fin.ext ?_)
  match a with
  | ⟨0, _⟩ => show win6_4.index t (0 : Fin 2) * 128 + 1 * e.val = e.val; omega
  | ⟨1, _⟩ => show win6_4.index t (1 : Fin 2) * 10 + 1 * k.val = k.val; omega
/-- Window 5's block at any point is its whole array. -/
theorem wt5 (c : Dev nD) (t : Fin cfg6.N) (e : Fin 32) (k : Fin 10) :
    iblk6 V c 5 t (ix2 e k) = (V c main_v49 : Mat 32 10) (ix2 e k) := by
  obtain ⟨e0, e1, e2, e3, e4, e5, e6, e7, e8, e9, e10, e11, e12, e13, e14, e15, e16, e17, e18, e19⟩ := idx_facts t
  unfold iblk6
  rw [View.read_apply]
  show V c main_v49 (((cfg6.win 5).blk t).view.emb (ix2 e k)) = _
  refine congrArg (V c main_v49) (funext fun a => Fin.ext ?_)
  match a with
  | ⟨0, _⟩ => show win6_5.index t (0 : Fin 2) * 32 + 1 * e.val = e.val; omega
  | ⟨1, _⟩ => show win6_5.index t (1 : Fin 2) * 10 + 1 * k.val = k.val; omega
/-- Window 6's block at any point is its whole array. -/
theorem wt6 (c : Dev nD) (t : Fin cfg6.N) (e : Fin 32) (k : Fin 10) :
    iblk6 V c 6 t (ix2 e k) = (V c main_v50 : Mat 32 10) (ix2 e k) := by
  obtain ⟨e0, e1, e2, e3, e4, e5, e6, e7, e8, e9, e10, e11, e12, e13, e14, e15, e16, e17, e18, e19⟩ := idx_facts t
  unfold iblk6
  rw [View.read_apply]
  show V c main_v50 (((cfg6.win 6).blk t).view.emb (ix2 e k)) = _
  refine congrArg (V c main_v50) (funext fun a => Fin.ext ?_)
  match a with
  | ⟨0, _⟩ => show win6_6.index t (0 : Fin 2) * 32 + 1 * e.val = e.val; omega
  | ⟨1, _⟩ => show win6_6.index t (1 : Fin 2) * 10 + 1 * k.val = k.val; omega
/-- Window 7's block at any point is its whole array. -/
theorem wt7 (c : Dev nD) (t : Fin cfg6.N) (e : Fin 32) (k : Fin 10) :
    iblk6 V c 7 t (ix2 e k) = (V c main_v51 : Mat 32 10) (ix2 e k) := by
  obtain ⟨e0, e1, e2, e3, e4, e5, e6, e7, e8, e9, e10, e11, e12, e13, e14, e15, e16, e17, e18, e19⟩ := idx_facts t
  unfold iblk6
  rw [View.read_apply]
  show V c main_v51 (((cfg6.win 7).blk t).view.emb (ix2 e k)) = _
  refine congrArg (V c main_v51) (funext fun a => Fin.ext ?_)
  match a with
  | ⟨0, _⟩ => show win6_7.index t (0 : Fin 2) * 32 + 1 * e.val = e.val; omega
  | ⟨1, _⟩ => show win6_7.index t (1 : Fin 2) * 10 + 1 * k.val = k.val; omega
/-- The bias window's block at any point is the whole bias row. -/
theorem biasBlk (c : Dev nD) (t : Fin cfg6.N) (k : Fin 10) :
    iblk6 V c 8 t (ix2 (0 : Fin 1) k) = (V c main_v52 : Mat 1 10) (ix2 (0 : Fin 1) k) := by
  obtain ⟨e0, e1, e2, e3, e4, e5, e6, e7, e8, e9, e10, e11, e12, e13, e14, e15, e16, e17, e18, e19⟩ := idx_facts t
  unfold iblk6
  rw [View.read_apply]
  show V c main_v52 (((cfg6.win 8).blk t).view.emb (ix2 (0 : Fin 1) k)) = _
  refine congrArg (V c main_v52) (funext fun a => Fin.ext ?_)
  match a with
  | ⟨0, _⟩ => show win6_8.index t (0 : Fin 2) * 1 + 1 * 0 = 0; omega
  | ⟨1, _⟩ => show win6_8.index t (1 : Fin 2) * 10 + 1 * k.val = k.val; omega

/-- The block's logits at (p, k) are the whole logits at (2000 t + p, k). -/
theorem logitsBlk (c : Dev nD) (t : Fin cfg6.N) (p : Fin 2000) (r : Fin 100000) (hr : r.val = t.val * 2000 + p.val) (k : Fin 10)
    (x0 : Mat 2000 128) (x1 x2 x3 : Mat 2000 32) (w0 : Mat 128 10) (w1 w2 w3 : Mat 32 10) (b : Mat 1 10)
    (h0 : ∀ e, x0 (ix2 p e) = (V c main_arg0 : Mat 100000 128) (ix2 r e)) (h1 : ∀ e, x1 (ix2 p e) = (V c main_v15 : Mat 100000 32) (ix2 r e))
    (h2 : ∀ e, x2 (ix2 p e) = (V c main_v31 : Mat 100000 32) (ix2 r e)) (h3 : ∀ e, x3 (ix2 p e) = (V c main_v47 : Mat 100000 32) (ix2 r e))
    (g0 : ∀ e k, w0 (ix2 e k) = (V c main_v48 : Mat 128 10) (ix2 e k)) (g1 : ∀ e k, w1 (ix2 e k) = (V c main_v49 : Mat 32 10) (ix2 e k))
    (g2 : ∀ e k, w2 (ix2 e k) = (V c main_v50 : Mat 32 10) (ix2 e k)) (g3 : ∀ e k, w3 (ix2 e k) = (V c main_v51 : Mat 32 10) (ix2 e k))
    (gb : ∀ k, b (ix2 (0 : Fin 1) k) = (V c main_v52 : Mat 1 10) (ix2 (0 : Fin 1) k)) :
    logitsOf (N := 2000) x0 x1 x2 x3 w0 w1 w2 w3 b (ix2 p k) = logitsAll V c (ix2 r k) := by
  unfold logitsAll logitsOf
  have s0 := blockProd (K := 128) p r k x0 w0 (V c main_arg0) (V c main_v48) h0 g0
  have s1 := blockProd (K := 32) p r k x1 w1 (V c main_v15) (V c main_v49) h1 g1
  have s2 := blockProd (K := 32) p r k x2 w2 (V c main_v31) (V c main_v50) h2 g2
  have s3 := blockProd (K := 32) p r k x3 w3 (V c main_v47) (V c main_v51) h3 g3
  have s4 : b (ix2 (0 : Fin 1) (c1 (ix2 p k))) = (V c main_v52 : Mat 1 10) (ix2 (0 : Fin 1) (c1 (ix2 r k))) := gb k
  rw [s0, s1, s2, s3, s4]

/-- What point t writes back is block t of the whole result. -/
theorem flushed_eq (c : Dev nD) (t : Fin cfg6.N) :
    (dat6 V c).flushed 9 t = ((cfg6.win 9).blk t).view.read (Elt Ideal) (whole V c) := by
  show (cfg6.win 9).cut (grid6.coords t) ((dat6 V c).after 9 t) = _
  rw [after6_9]
  unfold out6_9
  rw [View.canon_unit_zero hz]
  simp only [View.ld_unit_zero (S := S2000x128) hz, View.ld_unit_zero (S := S2000x32) hz, View.ld_unit_zero (S := S128x10) hz,
    View.ld_unit_zero (S := S32x10) hz, View.ld_unit_zero (S := S1x10) hz]
  obtain ⟨e0, e1, e2, e3, e4, e5, e6, e7, e8, e9, e10, e11, e12, e13, e14, e15, e16, e17, e18, e19⟩ := idx_facts t
  have hN : cfg6.N = 50 := N_6
  have htl : t.val < 50 := by have := t.isLt; omega
  funext j
  obtain ⟨p, q, rfl⟩ : ∃ (p : Fin 2000) (q : Fin 10), j = ix2 p q := ⟨j 0, j 1, eq_ix2 j⟩
  have hpl : p.val < 2000 := p.isLt
  rw [pay3_eq]
  refine (pay1_apply (k6_pay2 (iblk6 V c 0 t) (iblk6 V c 1 t) (iblk6 V c 2 t) (iblk6 V c 3 t) (iblk6 V c 4 t) (iblk6 V c 5 t)
    (iblk6 V c 6 t) (iblk6 V c 7 t) (iblk6 V c 8 t)) p q).trans ?_
  rw [View.read_apply]
  obtain ⟨r, hr⟩ : ∃ r : Fin 100000, r.val = t.val * 2000 + p.val := ⟨⟨t.val * 2000 + p.val, by omega⟩, rfl⟩
  have hrow : c0 (((cfg6.win 9).blk t).view.emb (ix2 p q)) = r :=
    Fin.ext (show win6_9.index t (0 : Fin 2) * 2000 + 1 * p.val = r.val by omega)
  have hcol : c1 (((cfg6.win 9).blk t).view.emb (ix2 p q)) = q :=
    Fin.ext (show win6_9.index t (1 : Fin 2) * 10 + 1 * q.val = q.val by omega)
  show logOfShifted _ q = logOfShifted (fun k => logitsAll V c (ix2 (c0 (((cfg6.win 9).blk t).view.emb (ix2 p q))) k))
    (c1 (((cfg6.win 9).blk t).view.emb (ix2 p q)))
  rw [hrow, hcol]
  refine congrArg (fun L => logOfShifted L q) (funext fun k => ?_)
  refine (pay2_apply (iblk6 V c 0 t) (iblk6 V c 1 t) (iblk6 V c 2 t) (iblk6 V c 3 t) (iblk6 V c 4 t) (iblk6 V c 5 t)
    (iblk6 V c 6 t) (iblk6 V c 7 t) (iblk6 V c 8 t) p k).trans ?_
  exact logitsBlk V c t p r hr k (iblk6 V c 0 t) (iblk6 V c 1 t) (iblk6 V c 2 t) (iblk6 V c 3 t) (iblk6 V c 4 t) (iblk6 V c 5 t)
    (iblk6 V c 6 t) (iblk6 V c 7 t) (iblk6 V c 8 t) (feat0 V c t p r hr) (feat1 V c t p r hr) (feat2 V c t p r hr) (feat3 V c t p r hr)
    (wt4 V c t) (wt5 V c t) (wt6 V c t) (wt7 V c t) (biasBlk V c t)

/-- An index of the result is in point t's block iff each coordinate is in the block's range on its axis. -/
theorem mem_blk (t : Fin cfg6.N) (i : S100000x10.Idx) :
    i ∈ ((cfg6.win 9).blk t).view.set ↔ ∀ a : Fin 2, win6_9.index t a * S2000x10.size a ≤ (i a).val ∧ (i a).val < win6_9.index t a * S2000x10.size a + S2000x10.size a := by
  show i ∈ ((View.whole main_v53).slice (win6_9.rect t)).set ↔ _
  rw [View.set_slice_whole, Rect.mem_set_unit]
  exact Iff.rfl

/-- Every row of the result lies in the block of the point r / 2000. -/
theorem cover (i : S100000x10.Idx) :
    ∃ t : Fin cfg6.N, (cfg6.win 9).flush t = true ∧ i ∈ ((cfg6.win 9).blk t).view.set := by
  have hi0 : (i 0).val < 100000 := (i 0).isLt
  have hi1 : (i 1).val < 10 := (i 1).isLt
  have hN : cfg6.N = 50 := N_6
  let t : Fin cfg6.N := ⟨(i 0).val / 2000, by rw [hN]; omega⟩
  obtain ⟨e0, e1, e2, e3, e4, e5, e6, e7, e8, e9, e10, e11, e12, e13, e14, e15, e16, e17, e18, e19⟩ := idx_facts t
  have ht : t.val = (i 0).val / 2000 := rfl
  refine ⟨t, flush6_9 t, ?_⟩
  rw [mem_blk]
  intro a
  match a with
  | ⟨0, _⟩ => show win6_9.index t (0 : Fin 2) * 2000 ≤ (i 0).val ∧ (i 0).val < win6_9.index t (0 : Fin 2) * 2000 + 2000; omega
  | ⟨1, _⟩ => show win6_9.index t (1 : Fin 2) * 10 ≤ (i 1).val ∧ (i 1).val < win6_9.index t (1 : Fin 2) * 10 + 10; omega

/-- The result array after the call: the log-softmax of the whole logits. -/
theorem final (c : Dev nD) : (dat6 V c).arrAt 9 cfg6.N = whole V c :=
  (dat6 V c).arrAt_eq_of_cover 9 (whole V c) (fun t _ => flushed_eq V c t) (cover)

end Cert.KernelIdeal.Classifier

end
-- ==== Proof.KMath.lean ====
/-
  Arithmetic of the network's matrices, over arrays of extended reals.

  A product against two weight matrices laid side by side is the two products side by side: its columns
  [0,32) are the product with the left matrix, its columns [32,64) the product with the right one. A block of
  K rows cut out of a matrix from row o is the band of K rows that starts at row o. With these, the logits
  computed from the four bands cut out of the classifier's weights and the bias row given as a one-row
  matrix are the specification's logits, and a layer assembled from the two halves of the side-by-side
  product is the specification's layer.
-/
import proofs.«149410_j16793322127388_1_alg».proof.Proof.SpecK
import Idealize.ShloMosaic.Lib.Pipeline.Value
import Idealize.ShloMosaic.Lib.ValueLayout

noncomputable section

open Idealize.ShloMosaic Idealize.ShloMosaic.TcCoe Idealize.SL.Sem Idealize.ShloMosaic.ValueIdx
open scoped BigOperators

namespace Cert.Spec

open Cert.Lib.PlainDot

/-- Every matrix index is a pair of a row and a column. -/
theorem exists_ix2 {n0 n1 : ℕ} (i : (⟨2, ![n0, n1]⟩ : Shape).Idx) : ∃ (a : Fin n0) (j : Fin n1), i = ix2 a j :=
  ⟨c0 i, c1 i, funext fun d => by match d with | ⟨0, _⟩ => rfl | ⟨1, _⟩ => rfl⟩

/-- The columns [0,32) of x·[Wn | Ws] are x·Wn. -/
theorem sliceLo_mm {R K : ℕ} (x : Mat R K) (Wn Ws : Mat K 32)
    (hc : Shape.Concatenates [(⟨2, ![K, 32]⟩ : Shape), ⟨2, ![K, 32]⟩] ⟨2, ![K, 64]⟩ 1)
    (hs : (⟨2, ![R, 64]⟩ : Shape).Slices ![0, 0] ⟨2, ![R, 32]⟩) :
    extractStridedSlice ⟨2, ![R, 32]⟩ ![0, 0]
        (mm x (concatenate ⟨2, ![K, 64]⟩ 1 [⟨⟨2, ![K, 32]⟩, Wn⟩, ⟨⟨2, ![K, 32]⟩, Ws⟩] hc)) hs = mm x Wn := by
  funext i
  obtain ⟨a, j, rfl⟩ := exists_ix2 i
  rw [slice2_axis1_eq 0 _ hs a j]
  unfold mm
  refine Finset.sum_congr rfl fun k _ => congrArg₂ (· * ·) rfl ?_
  exact concatenate_pair_apply_left (t := ⟨2, ![K, 64]⟩) (1 : Fin 2) Wn Ws hc _ rfl (colIdx (ix2 a j) k) (fun b => by
    match b with
    | ⟨0, _⟩ => rfl
    | ⟨1, _⟩ => show j.val = 0 + j.val; exact (Nat.zero_add _).symm)

/-- The columns [32,64) of x·[Wn | Ws] are x·Ws. -/
theorem sliceHi_mm {R K : ℕ} (x : Mat R K) (Wn Ws : Mat K 32)
    (hc : Shape.Concatenates [(⟨2, ![K, 32]⟩ : Shape), ⟨2, ![K, 32]⟩] ⟨2, ![K, 64]⟩ 1)
    (hs : (⟨2, ![R, 64]⟩ : Shape).Slices ![0, 32] ⟨2, ![R, 32]⟩) :
    extractStridedSlice ⟨2, ![R, 32]⟩ ![0, 32]
        (mm x (concatenate ⟨2, ![K, 64]⟩ 1 [⟨⟨2, ![K, 32]⟩, Wn⟩, ⟨⟨2, ![K, 32]⟩, Ws⟩] hc)) hs = mm x Ws := by
  funext i
  obtain ⟨a, j, rfl⟩ := exists_ix2 i
  rw [slice2_axis1_eq 32 _ hs a j]
  unfold mm
  refine Finset.sum_congr rfl fun k _ => congrArg₂ (· * ·) rfl ?_
  exact concatenate_pair_apply_right (t := ⟨2, ![K, 64]⟩) (1 : Fin 2) Wn Ws hc _ rfl rfl (colIdx (ix2 a j) k) (fun b hb => by
    match b with
    | ⟨0, _⟩ => rfl
    | ⟨1, _⟩ => exact absurd rfl hb) (by show j.val + 32 = 32 + j.val; exact Nat.add_comm _ _)

/-- K rows cut out of the classifier's weights from row o are the band of K rows from row o. -/
theorem rows_eq {K : ℕ} (o : ℕ) (h : o + K ≤ 224) (W : Mat 224 10)
    (hs : (⟨2, ![224, 10]⟩ : Shape).Slices ![o, 0] ⟨2, ![K, 10]⟩) :
    extractStridedSlice ⟨2, ![K, 10]⟩ ![o, 0] W hs = rowsFrom K o h W := by
  funext i
  obtain ⟨j, e, rfl⟩ := exists_ix2 i
  rw [slice2_axis0_eq o W hs j e]
  rfl

/-- The logits from the four cut-out bands and the one-row bias matrix are the specification's logits. -/
theorem logitsOf_eq {N : ℕ} (x0 : Mat N 128) (x1 x2 x3 : Mat N 32) (W : Mat 224 10) (b : Row 10)
    (h0 : (⟨2, ![224, 10]⟩ : Shape).Slices ![0, 0] ⟨2, ![128, 10]⟩)
    (h1 : (⟨2, ![224, 10]⟩ : Shape).Slices ![128, 0] ⟨2, ![32, 10]⟩)
    (h2 : (⟨2, ![224, 10]⟩ : Shape).Slices ![160, 0] ⟨2, ![32, 10]⟩)
    (h3 : (⟨2, ![224, 10]⟩ : Shape).Slices ![192, 0] ⟨2, ![32, 10]⟩)
    (hb : (⟨1, ![10]⟩ : Shape).ShapeCasts ⟨2, ![1, 10]⟩) :
    logitsOf x0 x1 x2 x3 (extractStridedSlice ⟨2, ![128, 10]⟩ ![0, 0] W h0) (extractStridedSlice ⟨2, ![32, 10]⟩ ![128, 0] W h1)
        (extractStridedSlice ⟨2, ![32, 10]⟩ ![160, 0] W h2) (extractStridedSlice ⟨2, ![32, 10]⟩ ![192, 0] W h3)
        (shapeCast ⟨2, ![1, 10]⟩ b hb)
      = logits x0 x1 x2 x3 W b := by
  funext i
  unfold logitsOf logits
  rw [rows_eq 0 (by decide) W h0, rows_eq 128 (by decide) W h1, rows_eq 160 (by decide) W h2, rows_eq 192 (by decide) W h3,
    shapeCast_a_1a_apply b hb 0 (c1 i)]

/-- A layer assembled from the two halves of x·[Wn | Ws] and the one-row bias matrix is the specification's layer. -/
theorem layer_of_parts {N K : ℕ} (A : Mat N 32 → Mat N 32) (x : Mat N K) (Wn Ws : Mat K 32) (b : Row 32)
    (hc : Shape.Concatenates [(⟨2, ![K, 32]⟩ : Shape), ⟨2, ![K, 32]⟩] ⟨2, ![K, 64]⟩ 1)
    (hlo : (⟨2, ![N, 64]⟩ : Shape).Slices ![0, 0] ⟨2, ![N, 32]⟩) (hhi : (⟨2, ![N, 64]⟩ : Shape).Slices ![0, 32] ⟨2, ![N, 32]⟩)
    (hb : (⟨1, ![32]⟩ : Shape).ShapeCasts ⟨2, ![1, 32]⟩) :
    (fun i : (⟨2, ![N, 32]⟩ : Shape).Idx =>
        max (A (extractStridedSlice ⟨2, ![N, 32]⟩ ![0, 0]
              (mm x (concatenate ⟨2, ![K, 64]⟩ 1 [⟨⟨2, ![K, 32]⟩, Wn⟩, ⟨⟨2, ![K, 32]⟩, Ws⟩] hc)) hlo) i
            + extractStridedSlice ⟨2, ![N, 32]⟩ ![0, 32]
              (mm x (concatenate ⟨2, ![K, 64]⟩ 1 [⟨⟨2, ![K, 32]⟩, Wn⟩, ⟨⟨2, ![K, 32]⟩, Ws⟩] hc)) hhi i
            + shapeCast ⟨2, ![1, 32]⟩ b hb (ix2 (0 : Fin 1) (c1 i))) zero32)
      = layer A x Wn Ws b := by
  rw [sliceLo_mm x Wn Ws hc hlo, sliceHi_mm x Wn Ws hc hhi]
  funext i
  beta_reduce
  rw [shapeCast_a_1a_apply b hb 0 (c1 i)]
  rfl

end Cert.Spec

end
-- ==== Proof.Chain.lean ====
/-
  The result buffer's contents at the last boundary, as the network of the launch arrays.

  Walking the boundaries in order: the first stretch lays layer 0's two weight matrices side by side; the first
  call multiplies the features by them; the next stretch cuts the product into its halves, aggregates the low half
  along the edges and lays the bias out as a row; the next call adds the three and clamps: that is layer 0 of the
  network. Layers 1 and 2 repeat this on the previous layer's output. The last stretch cuts the classifier's
  weights into their bands, and the last call is the log-softmax of the logits of the features and the three layers'
  outputs. A buffer written at one boundary is read at a later one unchanged when nothing in between writes it.
-/
import proofs.«149410_j16793322127388_1_alg».proof.Proof.ChainArgs
import proofs.«149410_j16793322127388_1_alg».proof.Proof.Proj0
import proofs.«149410_j16793322127388_1_alg».proof.Proof.Proj2
import proofs.«149410_j16793322127388_1_alg».proof.Proof.Proj4
import proofs.«149410_j16793322127388_1_alg».proof.Proof.Comb1
import proofs.«149410_j16793322127388_1_alg».proof.Proof.Comb3
import proofs.«149410_j16793322127388_1_alg».proof.Proof.Comb5
import proofs.«149410_j16793322127388_1_alg».proof.Proof.Fc6b
import proofs.«149410_j16793322127388_1_alg».proof.Proof.KMath

noncomputable section

open Idealize.ShloMosaic Idealize.ShloMosaic.TcCoe Idealize.SL.Sem Idealize.ShloMosaic.ValueIdx
open Idealize.ShloMosaic.Pipeline (Dat)
open Idealize.ShloMosaic.StableHlo
open scoped BigOperators

namespace Cert.KernelIdeal.Chain

open Cert.KernelIdeal Cert.KernelIdeal.Gen Cert.KernelIdeal.GenP Cert.KernelIdeal.Host Cert.Spec Cert.Lib.PlainDot

variable (m : (ℓ : Loc nD τ sig) → Buf (Elt Ideal) ℓ) (ρ : Dev nD → PrngReg) (c : Dev nD)

/-- The launch contents of an argument buffer. -/
abbrev arg (r : Ref sig .tc) := W0 m ρ c (Proc.devRef .tc r)

/-- The aggregation over the launch edge lists. -/
abbrev A : Mat 100000 32 → Mat 100000 32 := aggK (arg m ρ c main_arg1) (arg m ρ c main_arg2)
/-- Layer 0's output. -/
abbrev H1 : Mat 100000 32 := layer (A m ρ c) (arg m ρ c main_arg0) (arg m ρ c main_arg3) (arg m ρ c main_arg5) (arg m ρ c main_arg4)
/-- Layer 1's output. -/
abbrev H2 : Mat 100000 32 := layer (A m ρ c) (H1 m ρ c) (arg m ρ c main_arg6) (arg m ρ c main_arg8) (arg m ρ c main_arg7)
/-- Layer 2's output. -/
abbrev H3 : Mat 100000 32 := layer (A m ρ c) (H2 m ρ c) (arg m ρ c main_arg9) (arg m ρ c main_arg11) (arg m ρ c main_arg10)

/-! ## Layer 0 -/

theorem cat0 : W1 m ρ c (Proc.devRef .tc main_v0)
    = concatenate S128x64 1 [⟨S128x32, (arg m ρ c main_arg3 : (⟨S128x32, .f32⟩ : BufTy).Contents (Elt Ideal))⟩,
        ⟨S128x32, (arg m ρ c main_arg5 : (⟨S128x32, .f32⟩ : BufTy).Contents (Elt Ideal))⟩] concatenates_S128x32_S128x32_S128x64_d1 :=
  s0_cat (W0 m ρ c)

theorem proj0 : W2 m ρ c (Proc.devRef .tc main_v1)
    = mm (R := 100000) (K := 128) (C := 64) (arg m ρ c main_arg0)
        (concatenate S128x64 1 [⟨S128x32, (arg m ρ c main_arg3 : (⟨S128x32, .f32⟩ : BufTy).Contents (Elt Ideal))⟩,
          ⟨S128x32, (arg m ρ c main_arg5 : (⟨S128x32, .f32⟩ : BufTy).Contents (Elt Ideal))⟩] concatenates_S128x32_S128x32_S128x64_d1) := by
  refine (W2_arr m ρ c 2).trans ((Proj0.final (V1 m ρ) c).trans ?_)
  show mm (R := 100000) (K := 128) (C := 64) (W1 m ρ c (Proc.devRef .tc main_arg0)) (W1 m ρ c (Proc.devRef .tc main_v0)) = _
  rw [kept1 m ρ c main_arg0 (by decide +kernel), cat0]

theorem layer0 : W4 m ρ c (Proc.devRef .tc main_v15) = H1 m ρ c := by
  refine (W4_arr m ρ c 3).trans ((Comb1.final (V3 m ρ) c).trans ?_)
  show combOf (N := 100000) (D := 32) (W3 m ρ c (Proc.devRef .tc main_v13)) (W3 m ρ c (Proc.devRef .tc main_v3))
      (W3 m ρ c (Proc.devRef .tc main_v14)) = _
  rw [show W3 m ρ c (Proc.devRef .tc main_v13) = _ from s1_agg (W2 m ρ c),
    show W3 m ρ c (Proc.devRef .tc main_v3) = _ from s1_self (W2 m ρ c),
    show W3 m ρ c (Proc.devRef .tc main_v14) = _ from s1_bias (W2 m ρ c),
    kept2 m ρ c main_arg1 (by decide +kernel), kept2 m ρ c main_arg2 (by decide +kernel), kept2 m ρ c main_arg4 (by decide +kernel), proj0]
  exact layer_of_parts (A m ρ c) (arg m ρ c main_arg0) (arg m ρ c main_arg3) (arg m ρ c main_arg5) (arg m ρ c main_arg4)
    concatenates_S128x32_S128x32_S128x64_d1 slices_S100000x64_S100000x32_0_0 slices_S100000x64_S100000x32_0_32 shapeCasts_S32_S1x32

/-! ## Layer 1 -/

theorem keep15_5 : W5 m ρ c (Proc.devRef .tc main_v15) = H1 m ρ c :=
  (pass2 (W4 m ρ c) main_v15 (by decide +kernel)).trans (layer0 m ρ c)

theorem cat1 : W5 m ρ c (Proc.devRef .tc main_v16) = concatenate S32x64 1 [⟨S32x32, (arg m ρ c main_arg6 : (⟨S32x32, .f32⟩ : BufTy).Contents (Elt Ideal))⟩,
        ⟨S32x32, (arg m ρ c main_arg8 : (⟨S32x32, .f32⟩ : BufTy).Contents (Elt Ideal))⟩] concatenates_S32x32_S32x32_S32x64_d1 := by
  refine (s2_cat (W4 m ρ c)).trans ?_
  rw [kept4 m ρ c main_arg6 (by decide +kernel), kept4 m ρ c main_arg8 (by decide +kernel)]

theorem proj1 : W6 m ρ c (Proc.devRef .tc main_v17)
    = mm (R := 100000) (K := 32) (C := 64) (H1 m ρ c) (concatenate S32x64 1 [⟨S32x32, (arg m ρ c main_arg6 : (⟨S32x32, .f32⟩ : BufTy).Contents (Elt Ideal))⟩,
        ⟨S32x32, (arg m ρ c main_arg8 : (⟨S32x32, .f32⟩ : BufTy).Contents (Elt Ideal))⟩] concatenates_S32x32_S32x32_S32x64_d1) := by
  refine (W6_arr m ρ c 2).trans ((Proj2.final (V5 m ρ) c).trans ?_)
  show mm (R := 100000) (K := 32) (C := 64) (W5 m ρ c (Proc.devRef .tc main_v15)) (W5 m ρ c (Proc.devRef .tc main_v16)) = _
  rw [keep15_5, cat1]

theorem keep15_6 : W6 m ρ c (Proc.devRef .tc main_v15) = H1 m ρ c :=
  ((W6_arr m ρ c 0).trans (((dat2 (V5 m ρ) c).arrAt_in 0 rfl _).trans (A_eq2 (V5 m ρ) c 0))).trans (keep15_5 m ρ c)
theorem keep15_7 : W7 m ρ c (Proc.devRef .tc main_v15) = H1 m ρ c :=
  (pass3 (W6 m ρ c) main_v15 (by decide +kernel)).trans (keep15_6 m ρ c)

theorem layer1 : W8 m ρ c (Proc.devRef .tc main_v31) = H2 m ρ c := by
  refine (W8_arr m ρ c 3).trans ((Comb3.final (V7 m ρ) c).trans ?_)
  show combOf (N := 100000) (D := 32) (W7 m ρ c (Proc.devRef .tc main_v29)) (W7 m ρ c (Proc.devRef .tc main_v19))
      (W7 m ρ c (Proc.devRef .tc main_v30)) = _
  rw [show W7 m ρ c (Proc.devRef .tc main_v29) = _ from s3_agg (W6 m ρ c),
    show W7 m ρ c (Proc.devRef .tc main_v19) = _ from s3_self (W6 m ρ c),
    show W7 m ρ c (Proc.devRef .tc main_v30) = _ from s3_bias (W6 m ρ c),
    kept6 m ρ c main_arg1 (by decide +kernel), kept6 m ρ c main_arg2 (by decide +kernel), kept6 m ρ c main_arg7 (by decide +kernel), proj1]
  exact layer_of_parts (A m ρ c) (H1 m ρ c) (arg m ρ c main_arg6) (arg m ρ c main_arg8) (arg m ρ c main_arg7)
    concatenates_S32x32_S32x32_S32x64_d1 slices_S100000x64_S100000x32_0_0 slices_S100000x64_S100000x32_0_32 shapeCasts_S32_S1x32

theorem keep15_8 : W8 m ρ c (Proc.devRef .tc main_v15) = H1 m ρ c :=
  (W8_of_ne m ρ c main_v15 (by decide +kernel)).trans (keep15_7 m ρ c)

/-! ## Layer 2 -/

theorem keep15_9 : W9 m ρ c (Proc.devRef .tc main_v15) = H1 m ρ c :=
  (pass4 (W8 m ρ c) main_v15 (by decide +kernel)).trans (keep15_8 m ρ c)
theorem keep31_9 : W9 m ρ c (Proc.devRef .tc main_v31) = H2 m ρ c :=
  (pass4 (W8 m ρ c) main_v31 (by decide +kernel)).trans (layer1 m ρ c)

theorem cat2 : W9 m ρ c (Proc.devRef .tc main_v32) = concatenate S32x64 1 [⟨S32x32, (arg m ρ c main_arg9 : (⟨S32x32, .f32⟩ : BufTy).Contents (Elt Ideal))⟩,
        ⟨S32x32, (arg m ρ c main_arg11 : (⟨S32x32, .f32⟩ : BufTy).Contents (Elt Ideal))⟩] concatenates_S32x32_S32x32_S32x64_d1 := by
  refine (s4_cat (W8 m ρ c)).trans ?_
  rw [kept8 m ρ c main_arg9 (by decide +kernel), kept8 m ρ c main_arg11 (by decide +kernel)]

theorem proj2 : W10 m ρ c (Proc.devRef .tc main_v33)
    = mm (R := 100000) (K := 32) (C := 64) (H2 m ρ c) (concatenate S32x64 1 [⟨S32x32, (arg m ρ c main_arg9 : (⟨S32x32, .f32⟩ : BufTy).Contents (Elt Ideal))⟩,
        ⟨S32x32, (arg m ρ c main_arg11 : (⟨S32x32, .f32⟩ : BufTy).Contents (Elt Ideal))⟩] concatenates_S32x32_S32x32_S32x64_d1) := by
  refine (W10_arr m ρ c 2).trans ((Proj4.final (V9 m ρ) c).trans ?_)
  show mm (R := 100000) (K := 32) (C := 64) (W9 m ρ c (Proc.devRef .tc main_v31)) (W9 m ρ c (Proc.devRef .tc main_v32)) = _
  rw [keep31_9, cat2]

theorem keep31_10 : W10 m ρ c (Proc.devRef .tc main_v31) = H2 m ρ c :=
  ((W10_arr m ρ c 0).trans (((dat4 (V9 m ρ) c).arrAt_in 0 rfl _).trans (A_eq4 (V9 m ρ) c 0))).trans (keep31_9 m ρ c)
theorem keep15_10 : W10 m ρ c (Proc.devRef .tc main_v15) = H1 m ρ c :=
  (W10_of_ne m ρ c main_v15 (by decide +kernel)).trans (keep15_9 m ρ c)
theorem keep31_11 : W11 m ρ c (Proc.devRef .tc main_v31) = H2 m ρ c :=
  (pass5 (W10 m ρ c) main_v31 (by decide +kernel)).trans (keep31_10 m ρ c)
theorem keep15_11 : W11 m ρ c (Proc.devRef .tc main_v15) = H1 m ρ c :=
  (pass5 (W10 m ρ c) main_v15 (by decide +kernel)).trans (keep15_10 m ρ c)

theorem layer2 : W12 m ρ c (Proc.devRef .tc main_v47) = H3 m ρ c := by
  refine (W12_arr m ρ c 3).trans ((Comb5.final (V11 m ρ) c).trans ?_)
  show combOf (N := 100000) (D := 32) (W11 m ρ c (Proc.devRef .tc main_v45)) (W11 m ρ c (Proc.devRef .tc main_v35))
      (W11 m ρ c (Proc.devRef .tc main_v46)) = _
  rw [show W11 m ρ c (Proc.devRef .tc main_v45) = _ from s5_agg (W10 m ρ c),
    show W11 m ρ c (Proc.devRef .tc main_v35) = _ from s5_self (W10 m ρ c),
    show W11 m ρ c (Proc.devRef .tc main_v46) = _ from s5_bias (W10 m ρ c),
    kept10 m ρ c main_arg1 (by decide +kernel), kept10 m ρ c main_arg2 (by decide +kernel), kept10 m ρ c main_arg10 (by decide +kernel), proj2]
  exact layer_of_parts (A m ρ c) (H2 m ρ c) (arg m ρ c main_arg9) (arg m ρ c main_arg11) (arg m ρ c main_arg10)
    concatenates_S32x32_S32x32_S32x64_d1 slices_S100000x64_S100000x32_0_0 slices_S100000x64_S100000x32_0_32 shapeCasts_S32_S1x32

theorem keep31_12 : W12 m ρ c (Proc.devRef .tc main_v31) = H2 m ρ c :=
  (W12_of_ne m ρ c main_v31 (by decide +kernel)).trans (keep31_11 m ρ c)
theorem keep15_12 : W12 m ρ c (Proc.devRef .tc main_v15) = H1 m ρ c :=
  (W12_of_ne m ρ c main_v15 (by decide +kernel)).trans (keep15_11 m ρ c)

/-! ## The classifier -/

theorem keep47_13 : W13 m ρ c (Proc.devRef .tc main_v47) = H3 m ρ c :=
  (pass6 (W12 m ρ c) main_v47 (by decide +kernel)).trans (layer2 m ρ c)
theorem keep31_13 : W13 m ρ c (Proc.devRef .tc main_v31) = H2 m ρ c :=
  (pass6 (W12 m ρ c) main_v31 (by decide +kernel)).trans (keep31_12 m ρ c)
theorem keep15_13 : W13 m ρ c (Proc.devRef .tc main_v15) = H1 m ρ c :=
  (pass6 (W12 m ρ c) main_v15 (by decide +kernel)).trans (keep15_12 m ρ c)

theorem band0 : W13 m ρ c (Proc.devRef .tc main_v48)
    = extractStridedSlice S128x10 ![0, 0] (arg m ρ c main_arg12) slices_S224x10_S128x10_0_0 := by
  refine (s6_w0 (W12 m ρ c)).trans ?_
  rw [kept12 m ρ c main_arg12 (by decide +kernel)]
theorem band1 : W13 m ρ c (Proc.devRef .tc main_v49)
    = extractStridedSlice S32x10 ![128, 0] (arg m ρ c main_arg12) slices_S224x10_S32x10_128_0 := by
  refine (s6_w1 (W12 m ρ c)).trans ?_
  rw [kept12 m ρ c main_arg12 (by decide +kernel)]
theorem band2 : W13 m ρ c (Proc.devRef .tc main_v50)
    = extractStridedSlice S32x10 ![160, 0] (arg m ρ c main_arg12) slices_S224x10_S32x10_160_0 := by
  refine (s6_w2 (W12 m ρ c)).trans ?_
  rw [kept12 m ρ c main_arg12 (by decide +kernel)]
theorem band3 : W13 m ρ c (Proc.devRef .tc main_v51)
    = extractStridedSlice S32x10 ![192, 0] (arg m ρ c main_arg12) slices_S224x10_S32x10_192_0 := by
  refine (s6_w3 (W12 m ρ c)).trans ?_
  rw [kept12 m ρ c main_arg12 (by decide +kernel)]
theorem biasRow : W13 m ρ c (Proc.devRef .tc main_v52)
    = shapeCast S1x10 (arg m ρ c main_arg13) shapeCasts_S10_S1x10 := by
  refine (s6_bias (W12 m ρ c)).trans ?_
  rw [kept12 m ρ c main_arg13 (by decide +kernel)]

/-- The result buffer at the last boundary: the network of the launch arrays. -/
theorem result : W14 m ρ c (Proc.devRef .tc main_v53)
    = net (A m ρ c) (arg m ρ c main_arg0) (arg m ρ c main_arg3) (arg m ρ c main_arg5) (arg m ρ c main_arg4)
        (arg m ρ c main_arg6) (arg m ρ c main_arg8) (arg m ρ c main_arg7)
        (arg m ρ c main_arg9) (arg m ρ c main_arg11) (arg m ρ c main_arg10) (arg m ρ c main_arg12) (arg m ρ c main_arg13) := by
  refine (W14_arr m ρ c 9).trans ((Classifier.final (V13 m ρ) c).trans ?_)
  show logSoftmax (logitsOf (N := 100000) (W13 m ρ c (Proc.devRef .tc main_arg0)) (W13 m ρ c (Proc.devRef .tc main_v15))
      (W13 m ρ c (Proc.devRef .tc main_v31)) (W13 m ρ c (Proc.devRef .tc main_v47)) (W13 m ρ c (Proc.devRef .tc main_v48))
      (W13 m ρ c (Proc.devRef .tc main_v49)) (W13 m ρ c (Proc.devRef .tc main_v50)) (W13 m ρ c (Proc.devRef .tc main_v51))
      (W13 m ρ c (Proc.devRef .tc main_v52))) = _
  rw [kept13 m ρ c main_arg0 (by decide +kernel), keep15_13, keep31_13, keep47_13, band0, band1, band2, band3, biasRow]
  rw [logitsOf_eq (N := 100000) (arg m ρ c main_arg0) (H1 m ρ c) (H2 m ρ c) (H3 m ρ c) (arg m ρ c main_arg12) (arg m ρ c main_arg13)
    slices_S224x10_S128x10_0_0 slices_S224x10_S32x10_128_0 slices_S224x10_S32x10_160_0 slices_S224x10_S32x10_192_0 shapeCasts_S10_S1x10]
  rfl

end Cert.KernelIdeal.Chain

end
-- ==== Proof.RefNetA.lean ====
/-
  The reference program's three layers as the specification's layers.

  Every layer of the reference gathers the rows of h·Wn along the edges' sources, sums them into the edges' targets
  from a zero matrix, adds the bias row stretched over the rows, adds h·Ws, and takes the maximum with the word of
  +0.0. The gather's and the scatter's index arrays are computed three times over, once per layer, by the same
  operations from the same two argument arrays, so the three aggregations are one function, `agg`. The reference
  sums (aggregate + bias) + self where the specification sums (aggregate + self) + bias: addition of extended
  reals is commutative and associative, whatever the terms.
-/
import proofs.«149410_j16793322127388_1_alg».proof.Proof.GenP.ReferenceIdeal.Read
import proofs.«149410_j16793322127388_1_alg».proof.Proof.Spec
import Idealize.ShloMosaic.PureOps.Ideal.Laws

noncomputable section

namespace Cert.ReferenceIdeal.RefNet

open Cert.ReferenceIdeal Cert.ReferenceIdeal.Gen Idealize.ShloMosaic Idealize.ShloMosaic.TcCoe Idealize.SL.Sem Idealize.ShloMosaic.StableHlo
open Idealize.ShloMosaic.ValueIdx
open Cert.Lib.PlainDot Cert.Lib.LogSoftmaxRow Cert.Spec
open scoped BigOperators

/-- the aggregation the reference applies in every layer: rows gathered along the edges' sources (negative indices wrapped by +100000), summed into the edges' targets from zero -/
def agg (x1 x2 : (⟨S3200000, .i32⟩ : BufTy).Contents (Elt Ideal)) : Cert.Spec.Mat 100000 32 → Cert.Spec.Mat 100000 32 :=
  fun h => Host.scatterAdd (F := Ideal) (φ := .f32) scatter_S100000x32_S3200000x1_S3200000x32_1_0_0_1 (ReadP.val_main_v8 (F := Ideal)) (ReadP.val_main_v9 (F := Ideal) x2)
    (Host.gather gather_S100000x32_S3200000x1_S3200000x32_1_0_n_n_0_1_132 h (ReadP.val_main_v6 (F := Ideal) x1))

/-- A layer in the reference's order of operations is the specification's layer: the two matrix products are
    the index sums, the stretched bias row and the stretched zero word are read at an index, and
    (a + b) + s = (a + s) + b. -/
theorem layer_eq {K : ℕ} (A : Mat 100000 32 → Mat 100000 32)
    (dn ds : DotDims ⟨2, ![100000, K]⟩ ⟨2, ![K, 32]⟩ ⟨2, ![100000, 32]⟩)
    (hdn : dn = DotDims.plain 100000 K 32) (hds : ds = DotDims.plain 100000 K 32)
    (h : Mat 100000 K) (Wn Ws : Mat K 32) (b : Row 32) (bias z : Mat 100000 32)
    (hb : ∀ i, bias i = b (ix1 (c1 i))) (hz : ∀ i, z i = zero32) :
    maximumf (F := Ideal) (φ := .f32)
        (addf (F := Ideal) (φ := .f32)
          (addf (F := Ideal) (φ := .f32) (A (Host.dotGeneral (F := Ideal) (φ₁ := .f32) (φ₂ := .f32) dn none h Wn)) bias)
          (Host.dotGeneral (F := Ideal) (φ₁ := .f32) (φ₂ := .f32) ds none h Ws)) z
      = layer A h Wn Ws b := by
  funext i
  have en : Host.dotGeneral (F := Ideal) (φ₁ := .f32) (φ₂ := .f32) dn none h Wn = mm h Wn :=
    funext fun j => dotGeneral_apply (φ₁ := .f32) (φ₂ := .f32) dn hdn none _ h Wn j
  have es : Host.dotGeneral (F := Ideal) (φ₁ := .f32) (φ₂ := .f32) ds none h Ws i = mm h Ws i :=
    dotGeneral_apply (φ₁ := .f32) (φ₂ := .f32) ds hds none _ h Ws i
  show max (A (Host.dotGeneral (F := Ideal) (φ₁ := .f32) (φ₂ := .f32) dn none h Wn) i + bias i
    + Host.dotGeneral (F := Ideal) (φ₁ := .f32) (φ₂ := .f32) ds none h Ws i) (z i) = _
  rw [en, es, hb i, hz i, add_right_comm]
  rfl

/-- The first layer's stretched bias row at an index: the bias at the index's column. -/
theorem bias1_apply (x4 : (⟨S32, .f32⟩ : BufTy).Contents (Elt Ideal)) (i : S100000x32.Idx) :
    ReadP.val_main_v12 (F := Ideal) x4 i = x4 (ix1 (c1 i)) := by
  rw [ReadP.val_main_v12_apply, ReadP.val_main_v11_apply]
  exact congrArg x4 (funext fun a => by match a with | ⟨0, _⟩ => rfl)
/-- The second layer's stretched bias row at an index. -/
theorem bias2_apply (x7 : (⟨S32, .f32⟩ : BufTy).Contents (Elt Ideal)) (i : S100000x32.Idx) :
    ReadP.val_main_v29 (F := Ideal) x7 i = x7 (ix1 (c1 i)) := by
  rw [ReadP.val_main_v29_apply, ReadP.val_main_v28_apply]
  exact congrArg x7 (funext fun a => by match a with | ⟨0, _⟩ => rfl)
/-- The third layer's stretched bias row at an index. -/
theorem bias3_apply (x10 : (⟨S32, .f32⟩ : BufTy).Contents (Elt Ideal)) (i : S100000x32.Idx) :
    ReadP.val_main_v46 (F := Ideal) x10 i = x10 (ix1 (c1 i)) := by
  rw [ReadP.val_main_v46_apply, ReadP.val_main_v45_apply]
  exact congrArg x10 (funext fun a => by match a with | ⟨0, _⟩ => rfl)

/-- The zero word the first layer's maximum is taken against, stretched over the matrix, at an index. -/
theorem zero1_apply (i : S100000x32.Idx) : ReadP.val_main_call0_v0 (F := Ideal) i = zero32 := by
  rw [ReadP.val_main_call0_v0_apply, ReadP.val_main_call0_cst_apply]; rfl
/-- The second layer's. -/
theorem zero2_apply (i : S100000x32.Idx) : ReadP.val_main_call1_v0 (F := Ideal) i = zero32 := by
  rw [ReadP.val_main_call1_v0_apply, ReadP.val_main_call1_cst_apply]; rfl
/-- The third layer's. -/
theorem zero3_apply (i : S100000x32.Idx) : ReadP.val_main_call2_v0 (F := Ideal) i = zero32 := by
  rw [ReadP.val_main_call2_v0_apply, ReadP.val_main_call2_cst_apply]; rfl

/-- The first layer of the reference is the specification's layer of the input features. -/
theorem layer1_eq (x0 : (⟨S100000x128, .f32⟩ : BufTy).Contents (Elt Ideal)) (x1 x2 : (⟨S3200000, .i32⟩ : BufTy).Contents (Elt Ideal))
    (x3 : (⟨S128x32, .f32⟩ : BufTy).Contents (Elt Ideal)) (x4 : (⟨S32, .f32⟩ : BufTy).Contents (Elt Ideal))
    (x5 : (⟨S128x32, .f32⟩ : BufTy).Contents (Elt Ideal)) :
    ReadP.val_main_v16 (F := Ideal) x0 x1 x2 x3 x4 x5 = layer (agg x1 x2) x0 x3 x5 x4 :=
  layer_eq (agg x1 x2) dot_S100000x128_S128x32_S100000x32_1_0_0_1_n_n dot_S100000x128_S128x32_S100000x32_1_0_0_1_n_n rfl rfl
    x0 x3 x5 x4 (ReadP.val_main_v12 (F := Ideal) x4) (ReadP.val_main_call0_v0 (F := Ideal)) (bias1_apply x4) zero1_apply

/-- The second layer of the reference is the specification's layer of the first layer's output: its index arrays
    are the first layer's, computed again. -/
theorem layer2_eq (x0 : (⟨S100000x128, .f32⟩ : BufTy).Contents (Elt Ideal)) (x1 x2 : (⟨S3200000, .i32⟩ : BufTy).Contents (Elt Ideal))
    (x3 : (⟨S128x32, .f32⟩ : BufTy).Contents (Elt Ideal)) (x4 : (⟨S32, .f32⟩ : BufTy).Contents (Elt Ideal))
    (x5 : (⟨S128x32, .f32⟩ : BufTy).Contents (Elt Ideal)) (x6 : (⟨S32x32, .f32⟩ : BufTy).Contents (Elt Ideal))
    (x7 : (⟨S32, .f32⟩ : BufTy).Contents (Elt Ideal)) (x8 : (⟨S32x32, .f32⟩ : BufTy).Contents (Elt Ideal)) :
    ReadP.val_main_v33 (F := Ideal) x0 x1 x2 x3 x4 x5 x6 x7 x8
      = layer (agg x1 x2) (layer (agg x1 x2) x0 x3 x5 x4) x6 x8 x7 := by
  have e : ReadP.val_main_v33 (F := Ideal) x0 x1 x2 x3 x4 x5 x6 x7 x8
      = layer (agg x1 x2) (ReadP.val_main_v16 (F := Ideal) x0 x1 x2 x3 x4 x5) x6 x8 x7 :=
    layer_eq (agg x1 x2) dot_S100000x32_S32x32_S100000x32_1_0_0_1_n_n dot_S100000x32_S32x32_S100000x32_1_0_0_1_n_n rfl rfl
      (ReadP.val_main_v16 (F := Ideal) x0 x1 x2 x3 x4 x5) x6 x8 x7 (ReadP.val_main_v29 (F := Ideal) x7)
      (ReadP.val_main_call1_v0 (F := Ideal)) (bias2_apply x7) zero2_apply
  rw [e, layer1_eq]

/-- The third layer of the reference is the specification's layer of the second layer's output. -/
theorem layer3_eq (x0 : (⟨S100000x128, .f32⟩ : BufTy).Contents (Elt Ideal)) (x1 x2 : (⟨S3200000, .i32⟩ : BufTy).Contents (Elt Ideal))
    (x3 : (⟨S128x32, .f32⟩ : BufTy).Contents (Elt Ideal)) (x4 : (⟨S32, .f32⟩ : BufTy).Contents (Elt Ideal))
    (x5 : (⟨S128x32, .f32⟩ : BufTy).Contents (Elt Ideal)) (x6 : (⟨S32x32, .f32⟩ : BufTy).Contents (Elt Ideal))
    (x7 : (⟨S32, .f32⟩ : BufTy).Contents (Elt Ideal)) (x8 x9 : (⟨S32x32, .f32⟩ : BufTy).Contents (Elt Ideal))
    (x10 : (⟨S32, .f32⟩ : BufTy).Contents (Elt Ideal)) (x11 : (⟨S32x32, .f32⟩ : BufTy).Contents (Elt Ideal)) :
    ReadP.val_main_v50 (F := Ideal) x0 x1 x2 x3 x4 x5 x6 x7 x8 x9 x10 x11
      = layer (agg x1 x2) (layer (agg x1 x2) (layer (agg x1 x2) x0 x3 x5 x4) x6 x8 x7) x9 x11 x10 := by
  have e : ReadP.val_main_v50 (F := Ideal) x0 x1 x2 x3 x4 x5 x6 x7 x8 x9 x10 x11
      = layer (agg x1 x2) (ReadP.val_main_v33 (F := Ideal) x0 x1 x2 x3 x4 x5 x6 x7 x8) x9 x11 x10 :=
    layer_eq (agg x1 x2) dot_S100000x32_S32x32_S100000x32_1_0_0_1_n_n dot_S100000x32_S32x32_S100000x32_1_0_0_1_n_n rfl rfl
      (ReadP.val_main_v33 (F := Ideal) x0 x1 x2 x3 x4 x5 x6 x7 x8) x9 x11 x10 (ReadP.val_main_v46 (F := Ideal) x10)
      (ReadP.val_main_call2_v0 (F := Ideal)) (bias3_apply x10) zero3_apply
  rw [e, layer2_eq]

end Cert.ReferenceIdeal.RefNet

end
-- ==== Proof.RefNetB.lean ====
/-
  The reference program's classifier as the specification's logits.

  The reference lays the input features and the three layers' outputs side by side into a matrix of 224 columns
  and multiplies it by the classifier's weights. A sum over the 224 columns is the sum of the sums over the bands
  [0,128), [128,160), [160,192), [192,224); on each band the side-by-side matrix reads one of the four pieces and
  the weights read the band of rows that starts where the band does. Only the associativity of addition is used.
-/
import proofs.«149410_j16793322127388_1_alg».proof.Proof.GenP.ReferenceIdeal.Read
import proofs.«149410_j16793322127388_1_alg».proof.Proof.Spec
import proofs.«149410_j16793322127388_1_alg».proof.Proof.RefNetA
import Idealize.ShloMosaic.Lib.Pipeline.Value
import Idealize.ShloMosaic.PureOps.Ideal.Laws

noncomputable section

namespace Cert.ReferenceIdeal.RefNet

open Cert.ReferenceIdeal Cert.ReferenceIdeal.Gen Idealize.ShloMosaic Idealize.ShloMosaic.TcCoe Idealize.SL.Sem Idealize.ShloMosaic.StableHlo
open Idealize.ShloMosaic.ValueIdx
open Cert.Lib.PlainDot Cert.Lib.LogSoftmaxRow Cert.Spec
open scoped BigOperators

/-- A sum over 224 positions is the sum of the sums over its four bands. -/
theorem sum_bands (f : Fin 224 → EReal) :
    ∑ k : Fin 224, f k
      = ∑ k : Fin 128, f ⟨k.val, Nat.lt_of_lt_of_le k.isLt (by decide)⟩
        + ∑ k : Fin 32, f ⟨128 + k.val, Nat.lt_of_lt_of_le (Nat.add_lt_add_left k.isLt 128) (by decide)⟩
        + ∑ k : Fin 32, f ⟨160 + k.val, Nat.lt_of_lt_of_le (Nat.add_lt_add_left k.isLt 160) (by decide)⟩
        + ∑ k : Fin 32, f ⟨192 + k.val, Nat.lt_of_lt_of_le (Nat.add_lt_add_left k.isLt 192) (by decide)⟩ := by
  have h : ∑ k : Fin (128 + 32 + 32 + 32), f k
      = ∑ k : Fin 128, f ⟨k.val, Nat.lt_of_lt_of_le k.isLt (by decide)⟩
        + ∑ k : Fin 32, f ⟨128 + k.val, Nat.lt_of_lt_of_le (Nat.add_lt_add_left k.isLt 128) (by decide)⟩
        + ∑ k : Fin 32, f ⟨160 + k.val, Nat.lt_of_lt_of_le (Nat.add_lt_add_left k.isLt 160) (by decide)⟩
        + ∑ k : Fin 32, f ⟨192 + k.val, Nat.lt_of_lt_of_le (Nat.add_lt_add_left k.isLt 192) (by decide)⟩ := by
    rw [Fin.sum_univ_add, Fin.sum_univ_add, Fin.sum_univ_add]
    rfl
  exact h

/-- The weights at row o + k, in the output index's column: the band from row o at row k. -/
theorem band_apply {N M C : ℕ} (K o : ℕ) (h : o + K ≤ M) (W : Mat M C) (i : (⟨2, ![N, C]⟩ : Shape).Idx) (k : Fin K) (kk : Fin M)
    (hk : kk.val = o + k.val) : W (colIdx i kk) = rowsFrom K o h W (colIdx i k) := by
  unfold rowsFrom
  refine congrArg W (funext fun a => Fin.ext ?_)
  match a with
  | ⟨0, _⟩ => exact hk
  | ⟨1, _⟩ => rfl

section pieces
variable (X0 : Mat 100000 128) (X1 X2 X3 : Mat 100000 32) (i : S100000x10.Idx) (kk : Fin 224)

/-- The four matrices side by side. -/
abbrev sideBySide : S100000x224.Idx → EReal :=
  concatenate (α := EReal) S100000x224 1 [⟨S100000x128, X0⟩, ⟨S100000x32, X1⟩, ⟨S100000x32, X2⟩, ⟨S100000x32, X3⟩]
    concatenates_S100000x128_S100000x32_S100000x32_S100000x32_S100000x224_d1

/-- A column of the first band reads the first piece. -/
theorem side0 (k : Fin 128) (hk : kk.val = 0 + k.val) : sideBySide X0 X1 X2 X3 (rowIdx i kk) = X0 (rowIdx i k) :=
  concatenate_apply_piece (1 : Fin S100000x224.rank) _ _ (rowIdx i kk) 0 (by show (0 : ℕ) < 4; decide) S100000x128 X0 rfl rfl 0 rfl (rowIdx i k)
    (fun b hb => by match b with | ⟨0, _⟩ => rfl | ⟨1, _⟩ => exact absurd rfl hb) hk.symm
/-- A column of the second band reads the second piece. -/
theorem side1 (k : Fin 32) (hk : kk.val = 128 + k.val) : sideBySide X0 X1 X2 X3 (rowIdx i kk) = X1 (rowIdx i k) :=
  concatenate_apply_piece (1 : Fin S100000x224.rank) _ _ (rowIdx i kk) 1 (by show (1 : ℕ) < 4; decide) S100000x32 X1 rfl rfl 128 rfl (rowIdx i k)
    (fun b hb => by match b with | ⟨0, _⟩ => rfl | ⟨1, _⟩ => exact absurd rfl hb) hk.symm
/-- A column of the third band reads the third piece. -/
theorem side2 (k : Fin 32) (hk : kk.val = 160 + k.val) : sideBySide X0 X1 X2 X3 (rowIdx i kk) = X2 (rowIdx i k) :=
  concatenate_apply_piece (1 : Fin S100000x224.rank) _ _ (rowIdx i kk) 2 (by show (2 : ℕ) < 4; decide) S100000x32 X2 rfl rfl 160 rfl (rowIdx i k)
    (fun b hb => by match b with | ⟨0, _⟩ => rfl | ⟨1, _⟩ => exact absurd rfl hb) hk.symm
/-- A column of the fourth band reads the fourth piece. -/
theorem side3 (k : Fin 32) (hk : kk.val = 192 + k.val) : sideBySide X0 X1 X2 X3 (rowIdx i kk) = X3 (rowIdx i k) :=
  concatenate_apply_piece (1 : Fin S100000x224.rank) _ _ (rowIdx i kk) 3 (by show (3 : ℕ) < 4; decide) S100000x32 X3 rfl rfl 192 rfl (rowIdx i k)
    (fun b hb => by match b with | ⟨0, _⟩ => rfl | ⟨1, _⟩ => exact absurd rfl hb) hk.symm

/-- The side-by-side matrix times the weights: the four pieces times their bands of rows, summed. -/
theorem side_mm (W : Mat 224 10) :
    mm (sideBySide X0 X1 X2 X3) W i
      = mm X0 (rowsFrom 128 0 (by decide) W) i + mm X1 (rowsFrom 32 128 (by decide) W) i
        + mm X2 (rowsFrom 32 160 (by decide) W) i + mm X3 (rowsFrom 32 192 (by decide) W) i := by
  unfold mm
  refine (sum_bands _).trans ?_
  refine congrArg₂ (· + ·) (congrArg₂ (· + ·) (congrArg₂ (· + ·) ?_ ?_) ?_) ?_
  · exact Finset.sum_congr rfl fun k _ => congrArg₂ (· * ·) (side0 X0 X1 X2 X3 i _ k (Nat.zero_add _).symm)
      (band_apply 128 0 _ W i k _ (Nat.zero_add _).symm)
  · exact Finset.sum_congr rfl fun k _ => congrArg₂ (· * ·) (side1 X0 X1 X2 X3 i _ k rfl) (band_apply 32 128 _ W i k _ rfl)
  · exact Finset.sum_congr rfl fun k _ => congrArg₂ (· * ·) (side2 X0 X1 X2 X3 i _ k rfl) (band_apply 32 160 _ W i k _ rfl)
  · exact Finset.sum_congr rfl fun k _ => congrArg₂ (· * ·) (side3 X0 X1 X2 X3 i _ k rfl) (band_apply 32 192 _ W i k _ rfl)

end pieces

/-- The classifier's stretched bias row at an index: the bias at the index's column. -/
theorem fcbias_apply (x13 : (⟨S10, .f32⟩ : BufTy).Contents (Elt Ideal)) (i : S100000x10.Idx) :
    ReadP.val_main_v54 (F := Ideal) x13 i = x13 (ix1 (c1 i)) := by
  rw [ReadP.val_main_v54_apply, ReadP.val_main_v53_apply]
  exact congrArg x13 (funext fun a => by match a with | ⟨0, _⟩ => rfl)

variable (x0 : (⟨S100000x128, .f32⟩ : BufTy).Contents (Elt Ideal)) (x1 x2 : (⟨S3200000, .i32⟩ : BufTy).Contents (Elt Ideal))
  (x3 : (⟨S128x32, .f32⟩ : BufTy).Contents (Elt Ideal)) (x4 : (⟨S32, .f32⟩ : BufTy).Contents (Elt Ideal))
  (x5 : (⟨S128x32, .f32⟩ : BufTy).Contents (Elt Ideal)) (x6 : (⟨S32x32, .f32⟩ : BufTy).Contents (Elt Ideal))
  (x7 : (⟨S32, .f32⟩ : BufTy).Contents (Elt Ideal)) (x8 x9 : (⟨S32x32, .f32⟩ : BufTy).Contents (Elt Ideal))
  (x10 : (⟨S32, .f32⟩ : BufTy).Contents (Elt Ideal)) (x11 : (⟨S32x32, .f32⟩ : BufTy).Contents (Elt Ideal))
  (x12 : (⟨S224x10, .f32⟩ : BufTy).Contents (Elt Ideal)) (x13 : (⟨S10, .f32⟩ : BufTy).Contents (Elt Ideal))

/-- The reference's logits are the specification's, of the input features and the three layers' outputs. -/
theorem logits_eq :
    ReadP.val_main_v55 (F := Ideal) x0 x1 x2 x3 x4 x5 x6 x7 x8 x9 x10 x11 x12 x13
      = logits x0 (layer (agg x1 x2) x0 x3 x5 x4) (layer (agg x1 x2) (layer (agg x1 x2) x0 x3 x5 x4) x6 x8 x7)
          (layer (agg x1 x2) (layer (agg x1 x2) (layer (agg x1 x2) x0 x3 x5 x4) x6 x8 x7) x9 x11 x10) x12 x13 := by
  funext i
  have e52 : ReadP.val_main_v52 (F := Ideal) x0 x1 x2 x3 x4 x5 x6 x7 x8 x9 x10 x11 x12 i
      = mm (ReadP.val_main_v51 (F := Ideal) x0 x1 x2 x3 x4 x5 x6 x7 x8 x9 x10 x11) x12 i :=
    dotGeneral_apply (φ₁ := .f32) (φ₂ := .f32) dot_S100000x224_S224x10_S100000x10_1_0_0_1_n_n rfl none _
      (ReadP.val_main_v51 (F := Ideal) x0 x1 x2 x3 x4 x5 x6 x7 x8 x9 x10 x11) x12 i
  have ecat : mm (ReadP.val_main_v51 (F := Ideal) x0 x1 x2 x3 x4 x5 x6 x7 x8 x9 x10 x11) x12 i
      = mm x0 (rowsFrom 128 0 (by decide) x12) i
        + mm (ReadP.val_main_v16 (F := Ideal) x0 x1 x2 x3 x4 x5) (rowsFrom 32 128 (by decide) x12) i
        + mm (ReadP.val_main_v33 (F := Ideal) x0 x1 x2 x3 x4 x5 x6 x7 x8) (rowsFrom 32 160 (by decide) x12) i
        + mm (ReadP.val_main_v50 (F := Ideal) x0 x1 x2 x3 x4 x5 x6 x7 x8 x9 x10 x11) (rowsFrom 32 192 (by decide) x12) i :=
    side_mm x0 (ReadP.val_main_v16 (F := Ideal) x0 x1 x2 x3 x4 x5) (ReadP.val_main_v33 (F := Ideal) x0 x1 x2 x3 x4 x5 x6 x7 x8)
      (ReadP.val_main_v50 (F := Ideal) x0 x1 x2 x3 x4 x5 x6 x7 x8 x9 x10 x11) i x12
  rw [ReadP.val_main_v55_apply, e52, ecat, layer1_eq, layer2_eq, layer3_eq, fcbias_apply]
  rfl

end Cert.ReferenceIdeal.RefNet

end
-- ==== Proof.RefNet.lean ====
/-
  The reference program's value as the specification's network.

  After the logits the reference takes, row by row, the maximum M of the row (a fold of max from −∞, then once
  more the maximum with −∞, which changes nothing), subtracts it from every entry, sums the exponentials of the
  shifted row from the word of +0.0 (which is 0), and subtracts the logarithm of that sum from the shifted
  entry: (L s − M) − log (Σ k, exp (L k − M)), the specification's log-softmax. With the three layers and the
  logits of the earlier modules this is the whole network.
-/
import proofs.«149410_j16793322127388_1_alg».proof.Proof.GenP.ReferenceIdeal.Read
import proofs.«149410_j16793322127388_1_alg».proof.Proof.Spec
import proofs.«149410_j16793322127388_1_alg».proof.Proof.RefNetB
import Idealize.ShloMosaic.PureOps.Ideal.Laws

noncomputable section

namespace Cert.ReferenceIdeal.RefNet

open Cert.ReferenceIdeal Cert.ReferenceIdeal.Gen Idealize.ShloMosaic Idealize.ShloMosaic.TcCoe Idealize.SL.Sem Idealize.ShloMosaic.StableHlo
open Idealize.ShloMosaic.ValueIdx
open Cert.Lib.PlainDot Cert.Lib.LogSoftmaxRow Cert.Spec
open scoped BigOperators

variable (x0 : (⟨S100000x128, .f32⟩ : BufTy).Contents (Elt Ideal)) (x1 x2 : (⟨S3200000, .i32⟩ : BufTy).Contents (Elt Ideal))
  (x3 : (⟨S128x32, .f32⟩ : BufTy).Contents (Elt Ideal)) (x4 : (⟨S32, .f32⟩ : BufTy).Contents (Elt Ideal))
  (x5 : (⟨S128x32, .f32⟩ : BufTy).Contents (Elt Ideal)) (x6 : (⟨S32x32, .f32⟩ : BufTy).Contents (Elt Ideal))
  (x7 : (⟨S32, .f32⟩ : BufTy).Contents (Elt Ideal)) (x8 x9 : (⟨S32x32, .f32⟩ : BufTy).Contents (Elt Ideal))
  (x10 : (⟨S32, .f32⟩ : BufTy).Contents (Elt Ideal)) (x11 : (⟨S32x32, .f32⟩ : BufTy).Contents (Elt Ideal))
  (x12 : (⟨S224x10, .f32⟩ : BufTy).Contents (Elt Ideal)) (x13 : (⟨S10, .f32⟩ : BufTy).Contents (Elt Ideal))

local notation "L55" => ReadP.val_main_v55 (F := Ideal) x0 x1 x2 x3 x4 x5 x6 x7 x8 x9 x10 x11 x12 x13

/-- The column of row maxima, stretched back over the row, at an index: the largest logit of the index's row. -/
theorem rowmax_apply (j : S100000x10.Idx) :
    ReadP.val_main_call3_v4 (F := Ideal) x0 x1 x2 x3 x4 x5 x6 x7 x8 x9 x10 x11 x12 x13 j = rowMax fun k => L55 (ix2 (c0 j) k) := by
  rw [ReadP.val_main_call3_v4_apply, ReadP.val_main_call3_v3_apply, ReadP.val_main_call3_v2_apply, ReadP.val_main_call3_v1_apply,
    ReadP.val_main_call3_cst_0_apply]
  have hidx : ReadP.idx_main_call3_v3 (ReadP.idx_main_call3_v4 j) = ix1 (c0 j) :=
    funext fun a => by match a with | ⟨0, _⟩ => rfl
  rw [hidx]
  have hm := hostRowMax_apply L55 reducesTo_S100000x10_S100000_d1 (by decide) h_S_ (c0 j)
  show max (Ideal.ofBits .f32 0xFF800000#32)
    (Host.reduce FloatOps.maximumf L55 (constant (⟨0, ![]⟩ : Shape) .f32 0xFF800000#32) reducesTo_S100000x10_S100000_d1 h_S_ (ix1 (c0 j))) = _
  rw [hm, ofBits_neg_inf]
  exact max_eq_right bot_le

/-- A shifted logit: the logit minus its row's largest. -/
theorem shifted_apply (j : S100000x10.Idx) :
    ReadP.val_main_call3_v5 (F := Ideal) x0 x1 x2 x3 x4 x5 x6 x7 x8 x9 x10 x11 x12 x13 j = L55 j - rowMax fun k => L55 (ix2 (c0 j) k) := by
  rw [ReadP.val_main_call3_v5_apply, rowmax_apply]
  rfl

/-- The reference's result is the log-softmax of its logits. -/
theorem logSoftmax_eq :
    ReadP.val_main_v56 (F := Ideal) x0 x1 x2 x3 x4 x5 x6 x7 x8 x9 x10 x11 x12 x13 = logSoftmax L55 := by
  funext i
  have hrow : ∀ k : Fin 10, ReadP.idx_main_call3_v7 (ReadP.idx_main_call3_v8 (ReadP.idx_main_call3_v10 i)) k = ix2 (c0 i) k :=
    fun k => funext fun a => by match a with | ⟨0, _⟩ => rfl | ⟨1, _⟩ => rfl
  have hi : ix2 (c0 i) (c1 i) = i := funext fun a => by match a with | ⟨0, _⟩ => rfl | ⟨1, _⟩ => rfl
  have h7 : ReadP.val_main_call3_v7 (F := Ideal) x0 x1 x2 x3 x4 x5 x6 x7 x8 x9 x10 x11 x12 x13 (ReadP.idx_main_call3_v8 (ReadP.idx_main_call3_v10 i))
      = ∑ k : Fin 10, Ideal.exp (L55 (ix2 (c0 i) k) - rowMax fun k' => L55 (ix2 (c0 i) k')) := by
    rw [ReadP.val_main_call3_v7_apply, ReadP.val_main_call3_cst_1_apply]
    show Ideal.ofBits .f32 0x00000000#32 + _ = _
    rw [Ideal.ofBits_zero_f32, zero_add]
    refine Finset.sum_congr rfl fun k _ => ?_
    rw [ReadP.val_main_call3_v6_apply, shifted_apply, hrow k]
    rfl
  rw [ReadP.val_main_v56_apply, ReadP.val_main_call3_v10_apply, ReadP.val_main_call3_v9_apply, ReadP.val_main_call3_v8_apply, h7,
    shifted_apply]
  unfold logSoftmax logOfShifted
  beta_reduce
  rw [hi]
  rfl

/-- The reference program's value is the specification's network over the reference's aggregation. -/
theorem result_eq :
    ReadP.val_main_v56 (F := Ideal) x0 x1 x2 x3 x4 x5 x6 x7 x8 x9 x10 x11 x12 x13
      = Cert.Spec.net (agg x1 x2) x0 x3 x5 x4 x6 x8 x7 x9 x11 x10 x12 x13 := by
  rw [logSoftmax_eq, logits_eq]
  rfl

end Cert.ReferenceIdeal.RefNet

end
-- ==== Proof.RefRun.lean ====
/-
  The reference program's run: every execution ends with the result buffer at the value the program's
  operations compose from the arguments, the arguments unchanged.

  The program is a straight line of 86 operations, each writing one buffer of its own from buffers written
  earlier. What a buffer holds at the end is the fold of the operations over the launch contents. The fold is
  evaluated in five stages — the three layers, the classifier, the log-softmax —, each from an arbitrary
  valuation: a stage leaves at its last buffer a function of what the valuation holds at the few buffers the
  stage reads, and leaves every buffer it does not write as it was. Chained, the stages give the result as a
  function of the launch contents of the fourteen arguments.
-/
import proofs.«149410_j16793322127388_1_alg».proof.Proof.GenP.ReferenceIdeal.Read
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The fold over a line cut in two, and the buffers a line leaves alone -/

/-- The fold over two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The fold over a line is the fold over its first n operations, then over the rest. -/
theorem after_take_drop {τ : Topo} {sig : RefSig} {Val : EltTy → Type} (n : ℕ) (l : List (HloOp τ sig Val)) (V : Valuation τ sig Val) :
    after l V = after (l.drop n) (after (l.take n) V) :=
  (congrArg (fun l' => after l' V) (List.take_append_drop n l).symm).trans (after_append _ _ V)

/-- A line whose operations write, one each and in order, the buffers `ys` leaves every other buffer as it was. -/
theorem after_keep {τ : Topo} {sig : RefSig} {Val : EltTy → Type} {l : List (HloOp τ sig Val)} {ys : List (Ref sig .tc)}
    (h : List.Forall₂ (fun op y => op.writes = {Proc.devRef (τ := τ) .tc y}) l ys) (V : Valuation τ sig Val)
    {r : Ref sig .tc} (hr : r ∉ ys) : after l V (Proc.devRef .tc r) = V (Proc.devRef .tc r) := by
  induction h generalizing V with
  | nil => rfl
  | @cons op y l ys hop _ ih =>
    rw [after_cons, ih _ (fun hm => hr (List.mem_cons_of_mem _ hm)),
      HloOp.result_of_not_mem _ _ (by
        rw [hop, Finset.mem_singleton]
        exact devRef_ne_of_ne (fun e => hr (e ▸ List.mem_cons_self)))]

/-- The buffers the program's operations write, in the operations' order. -/
def written : List (Ref sig .tc) :=
  [main_v0, main_c, main_v1, main_v2, main_c_0, main_v3, main_v4, main_v5, main_v6, main_v7, main_cst, main_v8, main_v9, main_v10, main_v11, main_v12, main_v13, main_v14, main_v15, main_call0_cst, main_call0_v0, main_v16, main_v17, main_c_1, main_v18, main_v19, main_c_2, main_v20, main_v21, main_v22, main_v23, main_v24, main_cst_3, main_v25, main_v26, main_v27, main_v28, main_v29, main_v30, main_v31, main_v32, main_call1_cst, main_call1_v0, main_v33, main_v34, main_c_4, main_v35, main_v36, main_c_5, main_v37, main_v38, main_v39, main_v40, main_v41, main_cst_6, main_v42, main_v43, main_v44, main_v45, main_v46, main_v47, main_v48, main_v49, main_call2_cst, main_call2_v0, main_v50, main_v51, main_v52, main_v53, main_v54, main_v55, main_call3_cst, main_call3_v0, main_call3_cst_0, main_call3_v1, main_call3_v2, main_call3_v3, main_call3_v4, main_call3_v5, main_call3_v6, main_call3_cst_1, main_call3_v7, main_call3_v8, main_call3_v9, main_call3_v10, main_v56]

/-- Each operation writes the one buffer listed for it. -/
theorem ops_written :
    List.Forall₂ (fun (op : HloOp τ sig (Elt F)) y => op.writes = {Proc.devRef (τ := τ) .tc y}) ValueP.ops written := by
  unfold ValueP.ops written
  repeat (first | exact List.Forall₂.nil | refine List.Forall₂.cons rfl ?_)

set_option maxRecDepth 8192

/-- Contents moved to a buffer's own type and back are the contents. -/
theorem ofBuf_toBuf {sig : RefSig} {T : BufTy} {Val : EltTy → Type} (x : TRef sig T) (v : T.Contents Val) :
    x.ofBuf (x.toBuf v) = v := by
  obtain ⟨r, rfl, _, _⟩ := x
  rfl

/-! ## The stages

Each stage's operations are made explicit, the operations of the called functions opened to the plain
ones, and the fold is read at the stage's last buffer: each operation at its own buffer gives its function of
what the earlier ones left, at any other buffer what was there. -/

/-- The first layer: its 22 operations leave at the layer's output the layer's function of the six arguments it reads. -/
theorem stage1 (W : Valuation τ sig (Elt F)) :
    after ((ValueP.ops (F := F)).take 22) W (Proc.devRef .tc main_v16)
      = ReadP.val_main_v16 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  unfold ValueP.ops
  dsimp only
  simp only [List.take_succ_cons, List.take_zero]
  simp only [TRef.nullary, TRef.unary, TRef.binary]
  after_results_simp
  rfl

variable (x0 : (⟨S100000x128, .f32⟩ : BufTy).Contents (Elt F)) (x1 x2 : (⟨S3200000, .i32⟩ : BufTy).Contents (Elt F))
  (x3 : (⟨S128x32, .f32⟩ : BufTy).Contents (Elt F)) (x4 : (⟨S32, .f32⟩ : BufTy).Contents (Elt F))
  (x5 : (⟨S128x32, .f32⟩ : BufTy).Contents (Elt F)) (x6 : (⟨S32x32, .f32⟩ : BufTy).Contents (Elt F))
  (x7 : (⟨S32, .f32⟩ : BufTy).Contents (Elt F)) (x8 x9 : (⟨S32x32, .f32⟩ : BufTy).Contents (Elt F))
  (x10 : (⟨S32, .f32⟩ : BufTy).Contents (Elt F)) (x11 : (⟨S32x32, .f32⟩ : BufTy).Contents (Elt F))
  (x12 : (⟨S224x10, .f32⟩ : BufTy).Contents (Elt F)) (x13 : (⟨S10, .f32⟩ : BufTy).Contents (Elt F))

/-- The second layer, from a valuation that holds the first layer's output and the arguments the layer reads. -/
theorem stage2 (W : Valuation τ sig (Elt F))
    (h16 : W (Proc.devRef .tc main_v16) = ReadP.val_main_v16 (F := F) x0 x1 x2 x3 x4 x5)
    (h1 : W (Proc.devRef .tc main_arg1) = x1) (h2 : W (Proc.devRef .tc main_arg2) = x2) (h6 : W (Proc.devRef .tc main_arg6) = x6)
    (h7 : W (Proc.devRef .tc main_arg7) = x7) (h8 : W (Proc.devRef .tc main_arg8) = x8) :
    after (((ValueP.ops (F := F)).drop 22).take 22) W (Proc.devRef .tc main_v33) = ReadP.val_main_v33 (F := F) x0 x1 x2 x3 x4 x5 x6 x7 x8 := by
  unfold ValueP.ops
  dsimp only
  simp only [List.drop_succ_cons, List.drop_zero, List.take_succ_cons, List.take_zero]
  simp only [TRef.nullary, TRef.unary, TRef.binary]
  after_results_simp
  rw [h16, h1, h2, h6, h7, h8]
  rfl

/-- The third layer, from a valuation that holds the second layer's output and the arguments the layer reads. -/
theorem stage3 (W : Valuation τ sig (Elt F))
    (h33 : W (Proc.devRef .tc main_v33) = ReadP.val_main_v33 (F := F) x0 x1 x2 x3 x4 x5 x6 x7 x8)
    (h1 : W (Proc.devRef .tc main_arg1) = x1) (h2 : W (Proc.devRef .tc main_arg2) = x2) (h9 : W (Proc.devRef .tc main_arg9) = x9)
    (h10 : W (Proc.devRef .tc main_arg10) = x10) (h11 : W (Proc.devRef .tc main_arg11) = x11) :
    after ((((ValueP.ops (F := F)).drop 22).drop 22).take 22) W (Proc.devRef .tc main_v50) = ReadP.val_main_v50 (F := F) x0 x1 x2 x3 x4 x5 x6 x7 x8 x9 x10 x11 := by
  unfold ValueP.ops
  dsimp only
  simp only [List.drop_succ_cons, List.drop_zero, List.take_succ_cons, List.take_zero]
  simp only [TRef.nullary, TRef.unary, TRef.binary]
  after_results_simp
  rw [h33, h1, h2, h9, h10, h11]
  rfl

/-- The classifier, from a valuation that holds the input features, the three layers' outputs, the weights and the bias. -/
theorem stage4 (W : Valuation τ sig (Elt F))
    (h0 : W (Proc.devRef .tc main_arg0) = x0) (h16 : W (Proc.devRef .tc main_v16) = ReadP.val_main_v16 (F := F) x0 x1 x2 x3 x4 x5)
    (h33 : W (Proc.devRef .tc main_v33) = ReadP.val_main_v33 (F := F) x0 x1 x2 x3 x4 x5 x6 x7 x8)
    (h50 : W (Proc.devRef .tc main_v50) = ReadP.val_main_v50 (F := F) x0 x1 x2 x3 x4 x5 x6 x7 x8 x9 x10 x11)
    (h12 : W (Proc.devRef .tc main_arg12) = x12) (h13 : W (Proc.devRef .tc main_arg13) = x13) :
    after (((((ValueP.ops (F := F)).drop 22).drop 22).drop 22).take 5) W (Proc.devRef .tc main_v55) = ReadP.val_main_v55 (F := F) x0 x1 x2 x3 x4 x5 x6 x7 x8 x9 x10 x11 x12 x13 := by
  unfold ValueP.ops
  dsimp only
  simp only [List.drop_succ_cons, List.drop_zero, List.take_succ_cons, List.take_zero]
  after_results_simp
  subst h0 h12 h13
  unfold ReadP.val_main_v55 ReadP.val_main_v52 ReadP.val_main_v51
  rw [← h16, ← h33, ← h50]
  rfl

/-- The log-softmax, from a valuation that holds the logits. -/
theorem stage5 (W : Valuation τ sig (Elt F))
    (h55 : W (Proc.devRef .tc main_v55) = ReadP.val_main_v55 (F := F) x0 x1 x2 x3 x4 x5 x6 x7 x8 x9 x10 x11 x12 x13) :
    after (((((ValueP.ops (F := F)).drop 22).drop 22).drop 22).drop 5) W (Proc.devRef .tc main_v56) = ReadP.val_main_v56 (F := F) x0 x1 x2 x3 x4 x5 x6 x7 x8 x9 x10 x11 x12 x13 := by
  unfold ValueP.ops
  dsimp only
  simp only [List.drop_succ_cons, List.drop_zero]
  simp only [TRef.nullary, TRef.unary, TRef.binary]
  after_results_simp
  simp only [ofBuf_toBuf]
  have h55' : (TRef.of (T := ⟨S100000x10, .f32⟩) main_v55).ofBuf (W (Proc.devRef .tc main_v55))
      = ReadP.val_main_v55 (F := F) x0 x1 x2 x3 x4 x5 x6 x7 x8 x9 x10 x11 x12 x13 := h55
  rw [h55']
  rfl

/-! ## The stages chained -/

/-- The fold over the whole line at the result buffer: the result's function of the fourteen arguments. -/
theorem after_ops_result (V : Valuation τ sig (Elt F)) :
    after (ValueP.ops (F := F)) V (Proc.devRef .tc main_v56)
      = ReadP.val_main_v56 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have w := ops_written (F := F)
  have w1 := List.forall₂_take 22 w
  have r1 := List.forall₂_drop 22 w
  have w2 := List.forall₂_take 22 r1
  have r2 := List.forall₂_drop 22 r1
  have w3 := List.forall₂_take 22 r2
  have e : after (ValueP.ops (F := F)) V
      = after (((((ValueP.ops (F := F)).drop 22).drop 22).drop 22).drop 5)
          (after (((((ValueP.ops (F := F)).drop 22).drop 22).drop 22).take 5)
            (after ((((ValueP.ops (F := F)).drop 22).drop 22).take 22)
              (after (((ValueP.ops (F := F)).drop 22).take 22) (after ((ValueP.ops (F := F)).take 22) V)))) := by
    rw [after_take_drop 22 ValueP.ops V, after_take_drop 22 (List.drop 22 ValueP.ops),
      after_take_drop 22 (List.drop 22 (List.drop 22 ValueP.ops)),
      after_take_drop 5 (List.drop 22 (List.drop 22 (List.drop 22 ValueP.ops)))]
  refine (congrFun e _).trans ?_
  -- what each stage leaves alone
  have k1 : ∀ {r : Ref sig .tc}, r ∉ written.take 22 →
      after ((ValueP.ops (F := F)).take 22) V (Proc.devRef .tc r) = V (Proc.devRef .tc r) := fun hr => after_keep w1 V hr
  have k2 : ∀ {r : Ref sig .tc}, r ∉ (written.drop 22).take 22 →
      after (((ValueP.ops (F := F)).drop 22).take 22) (after ((ValueP.ops (F := F)).take 22) V) (Proc.devRef .tc r)
        = after ((ValueP.ops (F := F)).take 22) V (Proc.devRef .tc r) := fun hr => after_keep w2 _ hr
  have k3 : ∀ {r : Ref sig .tc}, r ∉ ((written.drop 22).drop 22).take 22 →
      after ((((ValueP.ops (F := F)).drop 22).drop 22).take 22)
          (after (((ValueP.ops (F := F)).drop 22).take 22) (after ((ValueP.ops (F := F)).take 22) V)) (Proc.devRef .tc r)
        = after (((ValueP.ops (F := F)).drop 22).take 22) (after ((ValueP.ops (F := F)).take 22) V) (Proc.devRef .tc r) :=
    fun hr => after_keep w3 _ hr
  -- the three layers, the classifier, the log-softmax
  have f16 := stage1 (F := F) V
  have f33 := stage2 _ _ _ _ _ _ _ _ _ _ f16 (k1 (r := main_arg1) (by decide)) (k1 (r := main_arg2) (by decide))
    (k1 (r := main_arg6) (by decide)) (k1 (r := main_arg7) (by decide)) (k1 (r := main_arg8) (by decide))
  have f50 := stage3 _ _ _ _ _ _ _ _ _ _ _ _ _ f33
    ((k2 (r := main_arg1) (by decide)).trans (k1 (by decide))) ((k2 (r := main_arg2) (by decide)).trans (k1 (by decide)))
    ((k2 (r := main_arg9) (by decide)).trans (k1 (by decide))) ((k2 (r := main_arg10) (by decide)).trans (k1 (by decide)))
    ((k2 (r := main_arg11) (by decide)).trans (k1 (by decide)))
  have f55 := stage4 _ _ _ _ _ _ _ _ _ _ _ _ _ _ _
    ((k3 (r := main_arg0) (by decide)).trans ((k2 (by decide)).trans (k1 (by decide))))
    ((k3 (r := main_v16) (by decide)).trans ((k2 (by decide)).trans f16))
    ((k3 (r := main_v33) (by decide)).trans f33) f50
    ((k3 (r := main_arg12) (by decide)).trans ((k2 (by decide)).trans (k1 (by decide))))
    ((k3 (r := main_arg13) (by decide)).trans ((k2 (by decide)).trans (k1 (by decide))))
  exact stage5 _ _ _ _ _ _ _ _ _ _ _ _ _ _ _ f55

/-- The fold over the whole line leaves a buffer no operation writes as it was. -/
theorem after_ops_keep (V : Valuation τ sig (Elt F)) {r : Ref sig .tc} (hr : r ∉ written) :
    after (ValueP.ops (F := F)) V (Proc.devRef .tc r) = V (Proc.devRef .tc r) :=
  after_keep ops_written V hr

/-! ## The run -/

/-- From any memory with zero counters, every weakly fair execution of the reference program terminates with
    the result buffer at the result's function of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v56).trans (after_ops_result _),
      (h c main_arg0).trans (after_ops_keep _ (by decide)),
      (h c main_arg1).trans (after_ops_keep _ (by decide)),
      (h c main_arg2).trans (after_ops_keep _ (by decide)),
      (h c main_arg3).trans (after_ops_keep _ (by decide)),
      (h c main_arg4).trans (after_ops_keep _ (by decide)),
      (h c main_arg5).trans (after_ops_keep _ (by decide)),
      (h c main_arg6).trans (after_ops_keep _ (by decide)),
      (h c main_arg7).trans (after_ops_keep _ (by decide)),
      (h c main_arg8).trans (after_ops_keep _ (by decide)),
      (h c main_arg9).trans (after_ops_keep _ (by decide)),
      (h c main_arg10).trans (after_ops_keep _ (by decide)),
      (h c main_arg11).trans (after_ops_keep _ (by decide)),
      (h c main_arg12).trans (after_ops_keep _ (by decide)),
      (h c main_arg13).trans (after_ops_keep _ (by decide))⟩)
    (run_seq ValueP.scopedRefs_eq ValueP.scopedSems_eq defs main (fun _ => ValueP.ops) ValueP.main_eq (fun _ => ValueP.ops_sub) m ρ)

end Cert.ReferenceIdeal.RefRun

end
-- ==== Proof.lean ====
/-
  The five claims of this certificate.

  The kernel (as printed, and idealized) and the idealized reference each run to the end with their arguments
  unchanged. At the ideal values the two idealized programs compute one function of the arguments: a three-layer
  graph network — each layer the clamped sum of the neighbours' aggregated projection, the node's own projection
  and a bias — followed by a linear classifier over the features and the three layers' outputs laid side by side,
  and the log-softmax of each row. The kernel multiplies by the two weight matrices of a layer laid side by side and
  cuts the product in two; it multiplies the four feature matrices by four row bands of the classifier's weights and
  adds the products; and it adds a layer's three terms in another order. On the extended reals these are the same
  sums regrouped: only the commutativity and associativity of addition are used, so the inputs' finiteness is not.
  The aggregation (a gather along the edges' sources and a sum into their targets) is the same operation of the same
  edge lists in both programs and is never opened.
-/
import proofs.«149410_j16793322127388_1_alg».proof.Defs
import proofs.«149410_j16793322127388_1_alg».proof.Proof.Gen.Kernel
import proofs.«149410_j16793322127388_1_alg».proof.Proof.GenP.Kernel.Frame
import proofs.«149410_j16793322127388_1_alg».proof.Proof.Gen.KernelIdeal
import proofs.«149410_j16793322127388_1_alg».proof.Proof.GenP.KernelIdeal.Frame
import proofs.«149410_j16793322127388_1_alg».proof.Proof.Gen.ReferenceIdeal
import proofs.«149410_j16793322127388_1_alg».proof.Proof.Gen.Pre_finite_inputs
import proofs.«149410_j16793322127388_1_alg».proof.Proof.RunValue
import proofs.«149410_j16793322127388_1_alg».proof.Proof.Chain
import proofs.«149410_j16793322127388_1_alg».proof.Proof.RefNet
import proofs.«149410_j16793322127388_1_alg».proof.Proof.RefRun
import Idealize.ShloMosaic.Adequacy
import Idealize.ShloMosaic.Init

noncomputable section

namespace Cert.Proof

open Idealize.ShloMosaic Idealize.SL.Sem

/-- The two programs' aggregations are one function: the same gather and the same sum of the same index arrays. -/
theorem agg_eq (src dst : (⟨Cert.KernelIdeal.S3200000, .i32⟩ : BufTy).Contents (Elt Ideal)) :
    Cert.KernelIdeal.Host.aggK src dst = Cert.ReferenceIdeal.RefNet.agg src dst := by
  funext h
  unfold Cert.KernelIdeal.Host.aggK Cert.ReferenceIdeal.RefNet.agg
  unfold Cert.ReferenceIdeal.ReadP.val_main_v8 Cert.ReferenceIdeal.ReadP.val_main_v9 Cert.ReferenceIdeal.ReadP.val_main_v6
    Cert.ReferenceIdeal.ReadP.val_main_v5 Cert.ReferenceIdeal.ReadP.val_main_v4 Cert.ReferenceIdeal.ReadP.val_main_v3
    Cert.ReferenceIdeal.ReadP.val_main_v2 Cert.ReferenceIdeal.ReadP.val_main_v1 Cert.ReferenceIdeal.ReadP.val_main_c
    Cert.ReferenceIdeal.ReadP.val_main_c_0 Cert.ReferenceIdeal.ReadP.val_main_cst
  rfl

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RefRun.run m ρ)

/-- The ideal pass rewrote nothing: there is nothing to preserve. -/
theorem preserves : Cert.preserves_Kernel_KernelIdeal := trivial

/-- Both idealized programs end with the network of the arguments in their result buffers. -/
theorem algebraic : Cert.algebraic_KernelIdeal_ReferenceIdeal := by
  intro m ρ m' ρ' _ hagree
  refine ⟨fun c => Cert.Spec.net (Cert.KernelIdeal.Chain.A m ρ c) (Cert.KernelIdeal.Chain.arg m ρ c Cert.KernelIdeal.main_arg0)
      (Cert.KernelIdeal.Chain.arg m ρ c Cert.KernelIdeal.main_arg3) (Cert.KernelIdeal.Chain.arg m ρ c Cert.KernelIdeal.main_arg5)
      (Cert.KernelIdeal.Chain.arg m ρ c Cert.KernelIdeal.main_arg4) (Cert.KernelIdeal.Chain.arg m ρ c Cert.KernelIdeal.main_arg6)
      (Cert.KernelIdeal.Chain.arg m ρ c Cert.KernelIdeal.main_arg8) (Cert.KernelIdeal.Chain.arg m ρ c Cert.KernelIdeal.main_arg7)
      (Cert.KernelIdeal.Chain.arg m ρ c Cert.KernelIdeal.main_arg9) (Cert.KernelIdeal.Chain.arg m ρ c Cert.KernelIdeal.main_arg11)
      (Cert.KernelIdeal.Chain.arg m ρ c Cert.KernelIdeal.main_arg10) (Cert.KernelIdeal.Chain.arg m ρ c Cert.KernelIdeal.main_arg12)
      (Cert.KernelIdeal.Chain.arg m ρ c Cert.KernelIdeal.main_arg13), ?_, ?_⟩
  · exact (θ_run Cert.KernelIdeal.defs _ _).mono
      (fun r h c => ⟨(h c).1.trans (Cert.KernelIdeal.Chain.result m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.RefRun.run m' ρ')
    rw [Cert.ReferenceIdeal.RefNet.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    show Cert.Spec.net (Cert.ReferenceIdeal.RefNet.agg _ _) _ _ _ _ _ _ _ _ _ _ _ _ = Cert.Spec.net (Cert.KernelIdeal.Host.aggK _ _) _ _ _ _ _ _ _ _ _ _ _ _
    rw [agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
